-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩
abbrev S8x2048x256 : Shape := ⟨3, ![8, 2048, 256]⟩

abbrev nBuf : Space → Nat
  | .hbm => 5
  | .vmem => 20
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .hbm, ⟨4, _⟩ => ⟨S8x2048x256, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  reduces_S256x2048_S256 : S256x2048.Reduces [1] S256
  shapeCasts_S256_S256x1 : S256.ShapeCasts S256x1
  broadcasts_S256x1_S256x2048 : S256x1.Broadcasts S256x2048
  shapeCasts_S256x128_S1x256x128 : S256x128.ShapeCasts S1x256x128
  concatenates_S8x2048x128_S8x2048x128_S8x2048x256_d2 : Shape.Concatenates [S8x2048x128, S8x2048x128] S8x2048x256 2
  dot_S256x128_S128x2048_S256x2048_1_0_0_1_n_n_wf : DotDims.WF S256x128 S128x2048 S256x2048 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x2048x128.size a
  hwx0_0 : ∀ i : grid0.Coords, EltTy.bits .f32 = 32 ∨ (Rect.block (s := S8x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x2048x128.size a
  hwx0_3 : ∀ i : grid0.Coords, EltTy.bits .f32 = 32 ∨ (Rect.block (s := S8x2048x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S8x2048x128.size a
  hwx0_4 : ∀ i : grid0.Coords, EltTy.bits .f32 = 32 ∨ (Rect.block (s := S8x2048x128) S1x256x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S8x2048x128.size a
  hwx1_0 : ∀ i : grid1.Coords, EltTy.bits .f32 = 32 ∨ (Rect.block (s := S8x2048x128) S1x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .f32 = 32 ∨ (Rect.block (s := S8x2048x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S8x2048x128.size a
  hwx1_2 : ∀ i : grid1.Coords, EltTy.bits .f32 = 32 ∨ (Rect.block (s := S8x2048x128) S1x2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S8x2048x128.size a
  hwx1_3 : ∀ i : grid1.Coords, EltTy.bits .f32 = 32 ∨ (Rect.block (s := S8x2048x128) S1x256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x128.size a ≤ S8x2048x128.size a
  hwx1_4 : ∀ i : grid1.Coords, EltTy.bits .f32 = 32 ∨ (Rect.block (s := S8x2048x128) S1x256x128.size (cc1_transform_4 i) (hinb1_4 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x256 : Shape := ⟨3, ![8, 2048, 256]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x128, .f32⟩
  | .hbm, ⟨18, _⟩ => ⟨S8x2048x128, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x128, .f32⟩
  | .hbm, ⟨35, _⟩ => ⟨S8x2048x128, .f32⟩
  | .hbm, ⟨36, _⟩ => ⟨S8x2048x256, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x128_S8x2048x128_S8x2048x256_d2 : Shape.Concatenates [S8x2048x128, S8x2048x128] S8x2048x256 2
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KBody.lean ====
/-
  The body half of the frame of the two attention calls, for any float instance.

  Each call runs on an 8 × 8 grid: point (b, i) stages the query block (rows 256·i … 256·i + 255 of batch b), the
  whole key array and the whole value array of batch b, and the gate block, and writes back one block of the
  result. The body loads its four input blocks whole, computes, and stores the result block whole (it also
  loads the result buffer once, a value it never uses). So what it leaves in the result buffer is one function
  of the four input blocks — the store's payload laid over the whole buffer — and the input buffers are left
  as found. In each call two windows read one array (queries and gates; keys and values): the core's hold on
  such an array is dealt to the two windows as the two halves of the full share.
-/
import proofs.«151700_j76364518523410_1_alg».proof.Proof.Gen.Kernel.Launch
import proofs.«151700_j76364518523410_1_alg».proof.Proof.Gen.Kernel.Skeleton
import proofs.«151700_j76364518523410_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rQ : Rect S1x256x128 := Rect.unit (s := S1x256x128) ![0, 0, 0] S1x256x128.size inb_S1x256x128_S1x256x128_0_0_0
abbrev rK : Rect S1x2048x128 := Rect.unit (s := S1x2048x128) ![0, 0, 0] S1x2048x128.size inb_S1x2048x128_S1x2048x128_0_0_0

/-- The one store covers the result buffer. -/
theorem coverQ (p0 : Vec F S1x256x128 .f32) (y : S1x256x128.Idx) :
    ∃ pc ∈ ([⟨rQ, p0⟩] : List (View.Piece (Elt F) S1x256x128 .f32)), y ∈ pc.1.set :=
  View.cover_of_tiled [⟨rQ, p0⟩] S1x256x128.size (by rfl) y

section Regions
-- the core's buffer contents when a call is entered: every statement below is at this parameter
variable (V : (c : Dev nD) → (b : Ref sig .tc) → Buf (Elt F) ((c : Thread nD τ).loc b))

/-! # Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (not fetched: the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not (not fetched: the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not (not fetched: the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not (not fetched: the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The result buffer after the body, from the four input blocks: its one store's payload over the whole buffer. -/
def out0_4 (x0 : Vec F S1x256x128 .f32) (x1 x2 : Vec F S1x2048x128 .f32) (x3 : Vec F S1x256x128 .f32) : Vec F S1x256x128 .f32 :=
  View.canon [⟨rQ, k0_pay1 (View.ld x0 rQ) (View.ld x1 rK) (View.ld x2 rK) (View.ld x3 rQ)⟩]

set_option maxHeartbeats 1000000 in
/-- The body on whole staging memrefs, the inputs' at read contents `x0 … x3` and the result's at anything, runs to the
    continuation holding the inputs' as they were and the result's at `out0_4` of them. -/
theorem sound_kernel0 (c : Dev nD) (E : Set ℕ) (i : grid0.Coords)
    (arg2 : Memref sig .tc .vmem S1x256x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x256x128 .f32) (harg5 : arg5.IsWhole)
    (arg6 : Memref sig .tc .vmem S1x256x128 .f32) (harg6 : arg6.IsWhole)
    (x0 : Vec F S1x256x128 .f32) (x1 x2 : Vec F S1x2048x128 .f32) (x3 : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__gated_attn_kernel i arg2 harg2 arg3 harg3 arg4 harg4 arg5 harg5 arg6 harg6) K := by
  simp only [cc0__gated_attn_kernel_eq_skeleton]; unfold cc0__gated_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverQ _)

/-- The proof data of call 0 on core `c`: the arrays as the call finds them; after the body at point `t` each
    input's buffer at its block and the result's at `out0_4` of the input blocks; the invariant — the core's other scoped buffers and
    its random-number generator register, each at some contents — passed through untouched; nothing owed; the query and key windows hold the left half of their array's
    share, the value and gate windows the right half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Call 1 -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (not fetched: the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not (not fetched: the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not (not fetched: the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not (not fetched: the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The result buffer after the body, from the four input blocks: its one store's payload over the whole buffer. -/
def out1_4 (x0 : Vec F S1x256x128 .f32) (x1 x2 : Vec F S1x2048x128 .f32) (x3 : Vec F S1x256x128 .f32) : Vec F S1x256x128 .f32 :=
  View.canon [⟨rQ, k1_pay1 (View.ld x0 rQ) (View.ld x1 rK) (View.ld x2 rK) (View.ld x3 rQ)⟩]

set_option maxHeartbeats 1000000 in
/-- The body on whole staging memrefs, the inputs' at read contents `x0 … x3` and the result's at anything, runs to the
    continuation holding the inputs' as they were and the result's at `out1_4` of them. -/
theorem sound_kernel1 (c : Dev nD) (E : Set ℕ) (i : grid1.Coords)
    (arg2 : Memref sig .tc .vmem S1x256x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x256x128 .f32) (harg5 : arg5.IsWhole)
    (arg6 : Memref sig .tc .vmem S1x256x128 .f32) (harg6 : arg6.IsWhole)
    (x0 : Vec F S1x256x128 .f32) (x1 x2 : Vec F S1x2048x128 .f32) (x3 : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__gated_attn_kernel i arg2 harg2 arg3 harg3 arg4 harg4 arg5 harg5 arg6 harg6) K := by
  simp only [cc1__gated_attn_kernel_eq_skeleton]; unfold cc1__gated_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverQ _)

/-- The proof data of call 1 on core `c`: the arrays as the call finds them; after the body at point `t` each
    input's buffer at its block and the result's at `out1_4` of the input blocks; the invariant — the core's other scoped buffers and
    its random-number generator register, each at some contents — passed through untouched; nothing owed; the query and key windows hold the left half of their array's
    share, the value and gate windows the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The run of the whole program, for any float instance: the two attention calls and the concatenate, from any launch
  memory, with every unscoped buffer's final contents named.

  Between items every unscoped buffer of the core is held whole: at launch at the launch memory; after the first call
  the same but for the first result array, which holds what the call's write-backs left (the fold of its 64 blocks);
  after the second call likewise for the second result array; after the concatenate the output array holds the two
  result arrays side by side. The argument arrays are read by both calls and written by nothing, so they end as
  launched.
-/
import proofs.«151700_j76364518523410_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch (the first call's entry). -/
abbrev W0 (c : Dev nD) : Valuation τ sig (Elt F) := fun b => m (c, b)
/-- The same read at the TensorCore's references. -/
abbrev V0 : (c : Dev nD) → (b : Ref sig .tc) → Buf (Elt F) ((c : Thread nD τ).loc b) := fun c b => W0 m c b
/-- After the first call: its result array at what its write-backs left, every other buffer as before. -/
def W1 (c : Dev nD) : Valuation τ sig (Elt F) :=
  Function.update (W0 m c) (Proc.devRef .tc main_v0) ((dat0 (V0 m) c).arrAt 4 cfg0.N)
abbrev V1 : (c : Dev nD) → (b : Ref sig .tc) → Buf (Elt F) ((c : Thread nD τ).loc b) := fun c b => W1 m c b
/-- After the second call. -/
def W2 (c : Dev nD) : Valuation τ sig (Elt F) :=
  Function.update (W1 m c) (Proc.devRef .tc main_v1) ((dat1 (V1 m) c).arrAt 4 cfg1.N)
/-- After the concatenate. -/
abbrev W3 (c : Dev nD) : Valuation τ sig (Elt F) := StableHlo.after hostOps2 (W2 m c)

theorem W1_of (c : Dev nD) (r : Ref sig .tc) (h : r ≠ main_v0) : W1 m c r = W0 m c r := by
  unfold W1; exact Function.update_of_ne (StableHlo.devRef_ne_of_ne h) _ _
theorem W2_of (c : Dev nD) (r : Ref sig .tc) (h : r ≠ main_v1) : W2 m c r = W1 m c r := by
  unfold W2; exact Function.update_of_ne (StableHlo.devRef_ne_of_ne h) _ _
theorem W1_arg0 (c : Dev nD) : W1 m c main_arg0 = W0 m c main_arg0 := W1_of m c _ (by decide)
theorem W1_arg1 (c : Dev nD) : W1 m c main_arg1 = W0 m c main_arg1 := W1_of m c _ (by decide)
theorem W1_out (c : Dev nD) : W1 m c main_v0 = (dat0 (V0 m) c).arrAt 4 cfg0.N := by
  unfold W1; exact Function.update_self _ _ _
theorem W1_v1 (c : Dev nD) : W1 m c main_v1 = W0 m c main_v1 := W1_of m c _ (by decide)
theorem W1_v2 (c : Dev nD) : W1 m c main_v2 = W0 m c main_v2 := W1_of m c _ (by decide)
theorem W2_arg0 (c : Dev nD) : W2 m c main_arg0 = W1 m c main_arg0 := W2_of m c _ (by decide)
theorem W2_arg1 (c : Dev nD) : W2 m c main_arg1 = W1 m c main_arg1 := W2_of m c _ (by decide)
theorem W2_out (c : Dev nD) : W2 m c main_v1 = (dat1 (V1 m) c).arrAt 4 cfg1.N := by
  unfold W2; exact Function.update_self _ _ _
theorem W2_v0 (c : Dev nD) : W2 m c main_v0 = W1 m c main_v0 := W2_of m c _ (by decide)
theorem W2_v2 (c : Dev nD) : W2 m c main_v2 = W1 m c main_v2 := W2_of m c _ (by decide)

/-- The concatenate writes the output array only. -/
theorem hostOps2_writes : (hostOps2 : List (HloOp τ sig (Elt F))).Forall fun op => op.writes ⊆ (([main_v2] : List (Ref sig .tc)).map (Proc.devRef (τ := τ) .tc)).toFinset := by
  simp only [List.Forall]; exact (by simp only [StableHlo.binary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
theorem W3_of (c : Dev nD) (r : Ref sig .tc) (h : r ∉ ([main_v2] : List (Ref sig .tc))) : W3 m c r = W2 m c r :=
  StableHlo.after_of_writes_sub hostOps2 _ hostOps2_writes h

/-- Each argument array ends as launched. -/
theorem W3_main_arg0 (c : Dev nD) : W3 m c main_arg0 = m ((c : Thread nD τ).loc main_arg0) :=
  (W3_of m c main_arg0 (by decide)).trans <| (W2_arg0 m c).trans <| (W1_arg0 m c).trans rfl
theorem W3_main_arg1 (c : Dev nD) : W3 m c main_arg1 = m ((c : Thread nD τ).loc main_arg1) :=
  (W3_of m c main_arg1 (by decide)).trans <| (W2_arg1 m c).trans <| (W1_arg1 m c).trans rfl

/-- The output array ends at the two result arrays side by side. -/
theorem W3_main_v2 (c : Dev nD) :
    W3 m c main_v2 = concatenate S8x2048x256 2 [⟨S8x2048x128, (dat0 (V0 m) c).arrAt 4 cfg0.N⟩, ⟨S8x2048x128, (dat1 (V1 m) c).arrAt 4 cfg1.N⟩]
      concatenates_S8x2048x128_S8x2048x128_S8x2048x256_d2 := by
  have e : W3 m c main_v2 = concatenate S8x2048x256 2 [⟨S8x2048x128, W2 m c main_v0⟩, ⟨S8x2048x128, W2 m c main_v1⟩]
      concatenates_S8x2048x128_S8x2048x128_S8x2048x256_d2 := by
    show StableHlo.after hostOps2 (W2 m c) (Proc.devRef .tc main_v2) = _
    after_results
  rw [e, W2_v0, W1_out, W2_out]

/-! ## The unscoped buffers one by one; the arrays with their shares -/

/-- The core's five unscoped buffers, listed. -/
theorem held_uc (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2)) := by
  rw [← Pipeline.unscopedBufs_held (Ix := Unit) (Name := ℕ) (U := UR sig nD τ) (Lvl := ℕ) c W]
  unfold unscopedBufs
  exact bigSep_eq_bigSepL_of_eq [main_arg0, main_arg1, main_v0, main_v1, main_v2] (by decide) (by decide) _

/-- A buffer held whole at the full share is held at its two halves, -/
theorem halve {ℓ : Loc nD τ sig} (f : Buf (Elt F) ℓ) :
    ((ℓ ↦{fullShare} f) : sProp 𝕄) ⊢ iprop((ℓ ↦{fullShare.left} f) ∗ (ℓ ↦{fullShare.right} f)) :=
  (pointsTo_share (PosShare.mem_left_op_right fullShare)).1
/-- and two halves at the same contents make the full share again. -/
theorem unhalve {ℓ : Loc nD τ sig} (f : Buf (Elt F) ℓ) :
    (iprop((ℓ ↦{fullShare.left} f) ∗ (ℓ ↦{fullShare.right} f)) : sProp 𝕄) ⊢ (ℓ ↦{fullShare} f) :=
  (pointsTo_share (PosShare.mem_left_op_right fullShare)).2

section
variable (V : (c : Dev nD) → (b : Ref sig .tc) → Buf (Elt F) ((c : Thread nD τ).loc b))

/-- The first call's arrays, window by window: queries and gates are the two halves of the first argument, keys and values
    the two halves of the second; the result array whole. -/
theorem arrays0_eq (c : Dev nD) (Fs : (w : Fin cfg0.W) → Buf (Elt F) ((cfg0.win w).arr.view.loc (c : Thread nD τ))) :
    ((dat0 V c).arrays Fs : sProp 𝕄)
      = iprop((((c : Thread nD τ).loc main_arg0) ↦{fullShare.left} Fs 0) ∗ (((c : Thread nD τ).loc main_arg1) ↦{fullShare.left} Fs 1)
          ∗ (((c : Thread nD τ).loc main_arg1) ↦{fullShare.right} Fs 2) ∗ (((c : Thread nD τ).loc main_arg0) ↦{fullShare.right} Fs 3)
          ∗ (((c : Thread nD τ).loc main_v0) ↦{fullShare} Fs 4)) := by
  unfold Dat.arrays
  rw [show (bigSep Finset.univ fun w : Fin cfg0.W => ((cfg0.win w).arr.view.loc (c : Thread nD τ) ↦[(cfg0.win w).arr.view.set]{(dat0 V c).share w} Fs w : sProp 𝕄))
        = bigSep Finset.univ fun w : Fin cfg0.W => (((c : Thread nD τ).loc (Pipeline.arrRef spec0 w)) ↦{(dat0 V c).share w} Fs w : sProp 𝕄)
      from bigSep_congr fun w _ => by rw [(arr_whole0 w).set_eq_univ]]
  rw [bigSep_W0]
  rfl

/-- The second call's, with the arguments' roles exchanged. -/
theorem arrays1_eq (c : Dev nD) (Fs : (w : Fin cfg1.W) → Buf (Elt F) ((cfg1.win w).arr.view.loc (c : Thread nD τ))) :
    ((dat1 V c).arrays Fs : sProp 𝕄)
      = iprop((((c : Thread nD τ).loc main_arg1) ↦{fullShare.left} Fs 0) ∗ (((c : Thread nD τ).loc main_arg0) ↦{fullShare.left} Fs 1)
          ∗ (((c : Thread nD τ).loc main_arg0) ↦{fullShare.right} Fs 2) ∗ (((c : Thread nD τ).loc main_arg1) ↦{fullShare.right} Fs 3)
          ∗ (((c : Thread nD τ).loc main_v1) ↦{fullShare} Fs 4)) := by
  unfold Dat.arrays
  rw [show (bigSep Finset.univ fun w : Fin cfg1.W => ((cfg1.win w).arr.view.loc (c : Thread nD τ) ↦[(cfg1.win w).arr.view.set]{(dat1 V c).share w} Fs w : sProp 𝕄))
        = bigSep Finset.univ fun w : Fin cfg1.W => (((c : Thread nD τ).loc (Pipeline.arrRef spec1 w)) ↦{(dat1 V c).share w} Fs w : sProp 𝕄)
      from bigSep_congr fun w _ => by rw [(arr_whole1 w).set_eq_univ]]
  rw [bigSep_W1]
  rfl
end

/-! ## The proof data family and the thread state -/

/-- No call has a prefetched table. -/
abbrev adm : (p : Fin 2) → (pcfgs (F := F) p).Adm := fun p => (cfgs p).toPCfg_adm
/-- Each call's proof data at its entry contents: a literal match on the call. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- CALL 0 over the thread state: entered from every unscoped buffer at `W0`, left at `W1`. At entry the two
    arrays that two windows read are each dealt as the two halves of the full share; at exit the halves, still at the
    entry contents, are joined back, and the result array is held at what the write-backs left. The generator register
    goes into the invariant and comes out; nothing is owed; the kernel names no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := iprop((((c : Thread nD τ).loc main_v1) ↦{fullShare} W0 m c main_v1) ∗ (((c : Thread nD τ).loc main_v2) ↦{fullShare} W0 m c main_v2))
  hentry c := by
    rw [Pipeline.ownSems0_none, held_uc, show (pdats m 0 c) = dat0 (V0 m) c from rfl, arrays0_eq]
    iintro ⟨⟨⟨Ha0, Ha1, Hv0, Hv1, Hv2⟩, Hp, HO⟩, -, -⟩
    ihave Ha0' := (halve (F := F) (ℓ := (c : Thread nD τ).loc main_arg0) _) $$ Ha0
    icases Ha0' with ⟨Ha0l, Ha0r⟩
    ihave Ha1' := (halve (F := F) (ℓ := (c : Thread nD τ).loc main_arg1) _) $$ Ha1
    icases Ha1' with ⟨Ha1l, Ha1r⟩
    imodintro
    isplitl [Ha0l Ha0r Ha1l Ha1r Hv0]
    · isplitl [Ha0l]; · iexact Ha0l
      isplitl [Ha1l]; · iexact Ha1l
      isplitl [Ha1r]; · iexact Ha1r
      isplitl [Ha0r]; · iexact Ha0r
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hv1]; · iexact Hv1
    iexact Hv2
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_uc, show (pdats m 0 c) = dat0 (V0 m) c from rfl, arrays0_eq,
      show (dat0 (V0 m) c).arrAt 0 (Pipeline.pin (pcfgs (F := F)) adm 0).N = W0 m c main_arg0 from (dat0 (V0 m) c).arrAt_in 0 rfl _,
      show (dat0 (V0 m) c).arrAt 1 (Pipeline.pin (pcfgs (F := F)) adm 0).N = W0 m c main_arg1 from (dat0 (V0 m) c).arrAt_in 1 rfl _,
      show (dat0 (V0 m) c).arrAt 2 (Pipeline.pin (pcfgs (F := F)) adm 0).N = W0 m c main_arg1 from (dat0 (V0 m) c).arrAt_in 2 rfl _,
      show (dat0 (V0 m) c).arrAt 3 (Pipeline.pin (pcfgs (F := F)) adm 0).N = W0 m c main_arg0 from (dat0 (V0 m) c).arrAt_in 3 rfl _,
      W1_arg0, W1_arg1, W1_out, W1_v1, W1_v2]
    iintro ⟨⟨Hql, Hkl, Hkr, Hqr, Hout⟩, HO, HY, ⟨HzA, HzB⟩⟩
    ihave Hq := (unhalve (F := F) _) $$ [Hql Hqr]
    · isplitl [Hql]; · iexact Hql
      iexact Hqr
    ihave Hk := (unhalve (F := F) _) $$ [Hkl Hkr]
    · isplitl [Hkl]; · iexact Hkl
      iexact Hkr
    imodintro
    isplitl [Hq Hk Hout HzA HzB]
    · isplitl [Hq]; · iexact Hq
      isplitl [Hk]; · iexact Hk
      isplitl [Hout]; · iexact Hout
      isplitl [HzA]; · iexact HzA
      iexact HzB
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W1`, left at `W2`. At entry the two
    arrays that two windows read are each dealt as the two halves of the full share; at exit the halves, still at the
    entry contents, are joined back, and the result array is held at what the write-backs left. The generator register
    goes into the invariant and comes out; nothing is owed; the kernel names no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := iprop((((c : Thread nD τ).loc main_v0) ↦{fullShare} W1 m c main_v0) ∗ (((c : Thread nD τ).loc main_v2) ↦{fullShare} W1 m c main_v2))
  hentry c := by
    rw [Pipeline.ownSems0_none, held_uc, show (pdats m 1 c) = dat1 (V1 m) c from rfl, arrays1_eq]
    iintro ⟨⟨⟨Ha0, Ha1, Hv0, Hv1, Hv2⟩, Hp, HO⟩, -, -⟩
    ihave Ha0' := (halve (F := F) (ℓ := (c : Thread nD τ).loc main_arg0) _) $$ Ha0
    icases Ha0' with ⟨Ha0l, Ha0r⟩
    ihave Ha1' := (halve (F := F) (ℓ := (c : Thread nD τ).loc main_arg1) _) $$ Ha1
    icases Ha1' with ⟨Ha1l, Ha1r⟩
    imodintro
    isplitl [Ha0l Ha0r Ha1l Ha1r Hv1]
    · isplitl [Ha1l]; · iexact Ha1l
      isplitl [Ha0l]; · iexact Ha0l
      isplitl [Ha0r]; · iexact Ha0r
      isplitl [Ha1r]; · iexact Ha1r
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hv0]; · iexact Hv0
    iexact Hv2
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_uc, show (pdats m 1 c) = dat1 (V1 m) c from rfl, arrays1_eq,
      show (dat1 (V1 m) c).arrAt 0 (Pipeline.pin (pcfgs (F := F)) adm 1).N = W1 m c main_arg1 from (dat1 (V1 m) c).arrAt_in 0 rfl _,
      show (dat1 (V1 m) c).arrAt 1 (Pipeline.pin (pcfgs (F := F)) adm 1).N = W1 m c main_arg0 from (dat1 (V1 m) c).arrAt_in 1 rfl _,
      show (dat1 (V1 m) c).arrAt 2 (Pipeline.pin (pcfgs (F := F)) adm 1).N = W1 m c main_arg0 from (dat1 (V1 m) c).arrAt_in 2 rfl _,
      show (dat1 (V1 m) c).arrAt 3 (Pipeline.pin (pcfgs (F := F)) adm 1).N = W1 m c main_arg1 from (dat1 (V1 m) c).arrAt_in 3 rfl _,
      W2_arg0, W2_arg1, W2_out, W2_v0, W2_v2]
    iintro ⟨⟨Hql, Hkl, Hkr, Hqr, Hout⟩, HO, HY, ⟨HzA, HzB⟩⟩
    ihave Hq := (unhalve (F := F) _) $$ [Hql Hqr]
    · isplitl [Hql]; · iexact Hql
      iexact Hqr
    ihave Hk := (unhalve (F := F) _) $$ [Hkl Hkr]
    · isplitl [Hkl]; · iexact Hkl
      iexact Hkr
    imodintro
    isplitl [Hq Hk Hout HzA HzB]
    · isplitl [Hk]; · iexact Hk
      isplitl [Hq]; · iexact Hq
      isplitl [HzA]; · iexact HzA
      isplitl [Hout]; · iexact Hout
      iexact HzB
    isplitl [HY]; · iexact HY
    unfold Pipeline.Dat.owesAt Pipeline.owesWithin
    icases HO with ⟨%W, -, HO⟩; iexists W; iexact HO

/-- The concatenate as a segment, from the contents the second call leaves. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- The program's three items in order. -/
abbrev segs : List (Pipeline.Seg (pcfgs (F := F)) adm (pdats m) () defs₀ 𝒱₀ L lv) :=
  [ .region (reg0 m), .region (reg1 m), .host (hseg2 m) ]

/-- The last thread state without the dues: every unscoped buffer at the final contents, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN, at any float instance: from any memory with zero counters every weakly fair execution of the program
    terminates, nothing faulting, and every final memory holds each unscoped buffer at the final contents `W3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

/-- The run with the output named: the output array ends at the two calls' result arrays side by side, each the fold of
    its call's 64 written blocks; the arguments end as launched. -/
theorem run_out (ρ : Dev nD → PrngReg) : θ_run defs (onTc (τ := τ) (main (F := F))) ⟨m, fun _ => 0, ρ⟩ (fun r => ∀ c : Dev nD,
      r.2.mem ((c.tc : Thread nD τ).loc main_v2)
        = concatenate S8x2048x256 2 [⟨S8x2048x128, (dat0 (V0 m) c).arrAt 4 cfg0.N⟩, ⟨S8x2048x128, (dat1 (V1 m) c).arrAt 4 cfg1.N⟩]
            concatenates_S8x2048x128_S8x2048x128_S8x2048x256_d2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c)⟩) (run_all m ρ)

end Cert.Kernel.Hand

end
-- ==== Proof.KIBody.lean ====
/-
  The body half of the frame of the two attention calls, for any float instance.

  Each call runs on an 8 × 8 grid: point (b, i) stages the query block (rows 256·i … 256·i + 255 of batch b), the
  whole key array and the whole value array of batch b, and the gate block, and writes back one block of the
  result. The body loads its four input blocks whole, computes, and stores the result block whole (it also
  loads the result buffer once, a value it never uses). So what it leaves in the result buffer is one function
  of the four input blocks — the store's payload laid over the whole buffer — and the input buffers are left
  as found. In each call two windows read one array (queries and gates; keys and values): the core's hold on
  such an array is dealt to the two windows as the two halves of the full share.
-/
import proofs.«151700_j76364518523410_1_alg».proof.Proof.Gen.KernelIdeal.Launch
import proofs.«151700_j76364518523410_1_alg».proof.Proof.Gen.KernelIdeal.Skeleton
import proofs.«151700_j76364518523410_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rQ : Rect S1x256x128 := Rect.unit (s := S1x256x128) ![0, 0, 0] S1x256x128.size inb_S1x256x128_S1x256x128_0_0_0
abbrev rK : Rect S1x2048x128 := Rect.unit (s := S1x2048x128) ![0, 0, 0] S1x2048x128.size inb_S1x2048x128_S1x2048x128_0_0_0

/-- The one store covers the result buffer. -/
theorem coverQ (p0 : Vec F S1x256x128 .f32) (y : S1x256x128.Idx) :
    ∃ pc ∈ ([⟨rQ, p0⟩] : List (View.Piece (Elt F) S1x256x128 .f32)), y ∈ pc.1.set :=
  View.cover_of_tiled [⟨rQ, p0⟩] S1x256x128.size (by rfl) y

section Regions
-- the core's buffer contents when a call is entered: every statement below is at this parameter
variable (V : (c : Dev nD) → (b : Ref sig .tc) → Buf (Elt F) ((c : Thread nD τ).loc b))

/-! # Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (not fetched: the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not (not fetched: the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not (not fetched: the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not (not fetched: the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The result buffer after the body, from the four input blocks: its one store's payload over the whole buffer. -/
def out0_4 (x0 : Vec F S1x256x128 .f32) (x1 x2 : Vec F S1x2048x128 .f32) (x3 : Vec F S1x256x128 .f32) : Vec F S1x256x128 .f32 :=
  View.canon [⟨rQ, k0_pay1 (View.ld x0 rQ) (View.ld x1 rK) (View.ld x2 rK) (View.ld x3 rQ)⟩]

set_option maxHeartbeats 1000000 in
/-- The body on whole staging memrefs, the inputs' at read contents `x0 … x3` and the result's at anything, runs to the
    continuation holding the inputs' as they were and the result's at `out0_4` of them. -/
theorem sound_kernel0 (c : Dev nD) (E : Set ℕ) (i : grid0.Coords)
    (arg2 : Memref sig .tc .vmem S1x256x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x256x128 .f32) (harg5 : arg5.IsWhole)
    (arg6 : Memref sig .tc .vmem S1x256x128 .f32) (harg6 : arg6.IsWhole)
    (x0 : Vec F S1x256x128 .f32) (x1 x2 : Vec F S1x2048x128 .f32) (x3 : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__gated_attn_kernel i arg2 harg2 arg3 harg3 arg4 harg4 arg5 harg5 arg6 harg6) K := by
  simp only [cc0__gated_attn_kernel_eq_skeleton]; unfold cc0__gated_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverQ _)

/-- The proof data of call 0 on core `c`: the arrays as the call finds them; after the body at point `t` each
    input's buffer at its block and the result's at `out0_4` of the input blocks; the invariant — the core's other scoped buffers and
    its random-number generator register, each at some contents — passed through untouched; nothing owed; the query and key windows hold the left half of their array's
    share, the value and gate windows the right half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Call 1 -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (not fetched: the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not (not fetched: the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not (not fetched: the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not (not fetched: the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The result buffer after the body, from the four input blocks: its one store's payload over the whole buffer. -/
def out1_4 (x0 : Vec F S1x256x128 .f32) (x1 x2 : Vec F S1x2048x128 .f32) (x3 : Vec F S1x256x128 .f32) : Vec F S1x256x128 .f32 :=
  View.canon [⟨rQ, k1_pay1 (View.ld x0 rQ) (View.ld x1 rK) (View.ld x2 rK) (View.ld x3 rQ)⟩]

set_option maxHeartbeats 1000000 in
/-- The body on whole staging memrefs, the inputs' at read contents `x0 … x3` and the result's at anything, runs to the
    continuation holding the inputs' as they were and the result's at `out1_4` of them. -/
theorem sound_kernel1 (c : Dev nD) (E : Set ℕ) (i : grid1.Coords)
    (arg2 : Memref sig .tc .vmem S1x256x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x256x128 .f32) (harg5 : arg5.IsWhole)
    (arg6 : Memref sig .tc .vmem S1x256x128 .f32) (harg6 : arg6.IsWhole)
    (x0 : Vec F S1x256x128 .f32) (x1 x2 : Vec F S1x2048x128 .f32) (x3 : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__gated_attn_kernel i arg2 harg2 arg3 harg3 arg4 harg4 arg5 harg5 arg6 harg6) K := by
  simp only [cc1__gated_attn_kernel_eq_skeleton]; unfold cc1__gated_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverQ _)

/-- The proof data of call 1 on core `c`: the arrays as the call finds them; after the body at point `t` each
    input's buffer at its block and the result's at `out1_4` of the input blocks; the invariant — the core's other scoped buffers and
    its random-number generator register, each at some contents — passed through untouched; nothing owed; the query and key windows hold the left half of their array's
    share, the value and gate windows the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The run of the whole program, for any float instance: the two attention calls and the concatenate, from any launch
  memory, with every unscoped buffer's final contents named.

  Between items every unscoped buffer of the core is held whole: at launch at the launch memory; after the first call
  the same but for the first result array, which holds what the call's write-backs left (the fold of its 64 blocks);
  after the second call likewise for the second result array; after the concatenate the output array holds the two
  result arrays side by side. The argument arrays are read by both calls and written by nothing, so they end as
  launched.
-/
import proofs.«151700_j76364518523410_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch (the first call's entry). -/
abbrev W0 (c : Dev nD) : Valuation τ sig (Elt F) := fun b => m (c, b)
/-- The same read at the TensorCore's references. -/
abbrev V0 : (c : Dev nD) → (b : Ref sig .tc) → Buf (Elt F) ((c : Thread nD τ).loc b) := fun c b => W0 m c b
/-- After the first call: its result array at what its write-backs left, every other buffer as before. -/
def W1 (c : Dev nD) : Valuation τ sig (Elt F) :=
  Function.update (W0 m c) (Proc.devRef .tc main_v0) ((dat0 (V0 m) c).arrAt 4 cfg0.N)
abbrev V1 : (c : Dev nD) → (b : Ref sig .tc) → Buf (Elt F) ((c : Thread nD τ).loc b) := fun c b => W1 m c b
/-- After the second call. -/
def W2 (c : Dev nD) : Valuation τ sig (Elt F) :=
  Function.update (W1 m c) (Proc.devRef .tc main_v1) ((dat1 (V1 m) c).arrAt 4 cfg1.N)
/-- After the concatenate. -/
abbrev W3 (c : Dev nD) : Valuation τ sig (Elt F) := StableHlo.after hostOps2 (W2 m c)

theorem W1_of (c : Dev nD) (r : Ref sig .tc) (h : r ≠ main_v0) : W1 m c r = W0 m c r := by
  unfold W1; exact Function.update_of_ne (StableHlo.devRef_ne_of_ne h) _ _
theorem W2_of (c : Dev nD) (r : Ref sig .tc) (h : r ≠ main_v1) : W2 m c r = W1 m c r := by
  unfold W2; exact Function.update_of_ne (StableHlo.devRef_ne_of_ne h) _ _
theorem W1_arg0 (c : Dev nD) : W1 m c main_arg0 = W0 m c main_arg0 := W1_of m c _ (by decide)
theorem W1_arg1 (c : Dev nD) : W1 m c main_arg1 = W0 m c main_arg1 := W1_of m c _ (by decide)
theorem W1_out (c : Dev nD) : W1 m c main_v0 = (dat0 (V0 m) c).arrAt 4 cfg0.N := by
  unfold W1; exact Function.update_self _ _ _
theorem W1_v1 (c : Dev nD) : W1 m c main_v1 = W0 m c main_v1 := W1_of m c _ (by decide)
theorem W1_v2 (c : Dev nD) : W1 m c main_v2 = W0 m c main_v2 := W1_of m c _ (by decide)
theorem W2_arg0 (c : Dev nD) : W2 m c main_arg0 = W1 m c main_arg0 := W2_of m c _ (by decide)
theorem W2_arg1 (c : Dev nD) : W2 m c main_arg1 = W1 m c main_arg1 := W2_of m c _ (by decide)
theorem W2_out (c : Dev nD) : W2 m c main_v1 = (dat1 (V1 m) c).arrAt 4 cfg1.N := by
  unfold W2; exact Function.update_self _ _ _
theorem W2_v0 (c : Dev nD) : W2 m c main_v0 = W1 m c main_v0 := W2_of m c _ (by decide)
theorem W2_v2 (c : Dev nD) : W2 m c main_v2 = W1 m c main_v2 := W2_of m c _ (by decide)

/-- The concatenate writes the output array only. -/
theorem hostOps2_writes : (hostOps2 : List (HloOp τ sig (Elt F))).Forall fun op => op.writes ⊆ (([main_v2] : List (Ref sig .tc)).map (Proc.devRef (τ := τ) .tc)).toFinset := by
  simp only [List.Forall]; exact (by simp only [StableHlo.binary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
theorem W3_of (c : Dev nD) (r : Ref sig .tc) (h : r ∉ ([main_v2] : List (Ref sig .tc))) : W3 m c r = W2 m c r :=
  StableHlo.after_of_writes_sub hostOps2 _ hostOps2_writes h

/-- Each argument array ends as launched. -/
theorem W3_main_arg0 (c : Dev nD) : W3 m c main_arg0 = m ((c : Thread nD τ).loc main_arg0) :=
  (W3_of m c main_arg0 (by decide)).trans <| (W2_arg0 m c).trans <| (W1_arg0 m c).trans rfl
theorem W3_main_arg1 (c : Dev nD) : W3 m c main_arg1 = m ((c : Thread nD τ).loc main_arg1) :=
  (W3_of m c main_arg1 (by decide)).trans <| (W2_arg1 m c).trans <| (W1_arg1 m c).trans rfl

/-- The output array ends at the two result arrays side by side. -/
theorem W3_main_v2 (c : Dev nD) :
    W3 m c main_v2 = concatenate S8x2048x256 2 [⟨S8x2048x128, (dat0 (V0 m) c).arrAt 4 cfg0.N⟩, ⟨S8x2048x128, (dat1 (V1 m) c).arrAt 4 cfg1.N⟩]
      concatenates_S8x2048x128_S8x2048x128_S8x2048x256_d2 := by
  have e : W3 m c main_v2 = concatenate S8x2048x256 2 [⟨S8x2048x128, W2 m c main_v0⟩, ⟨S8x2048x128, W2 m c main_v1⟩]
      concatenates_S8x2048x128_S8x2048x128_S8x2048x256_d2 := by
    show StableHlo.after hostOps2 (W2 m c) (Proc.devRef .tc main_v2) = _
    after_results
  rw [e, W2_v0, W1_out, W2_out]

/-! ## The unscoped buffers one by one; the arrays with their shares -/

/-- The core's five unscoped buffers, listed. -/
theorem held_uc (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2)) := by
  rw [← Pipeline.unscopedBufs_held (Ix := Unit) (Name := ℕ) (U := UR sig nD τ) (Lvl := ℕ) c W]
  unfold unscopedBufs
  exact bigSep_eq_bigSepL_of_eq [main_arg0, main_arg1, main_v0, main_v1, main_v2] (by decide) (by decide) _

/-- A buffer held whole at the full share is held at its two halves, -/
theorem halve {ℓ : Loc nD τ sig} (f : Buf (Elt F) ℓ) :
    ((ℓ ↦{fullShare} f) : sProp 𝕄) ⊢ iprop((ℓ ↦{fullShare.left} f) ∗ (ℓ ↦{fullShare.right} f)) :=
  (pointsTo_share (PosShare.mem_left_op_right fullShare)).1
/-- and two halves at the same contents make the full share again. -/
theorem unhalve {ℓ : Loc nD τ sig} (f : Buf (Elt F) ℓ) :
    (iprop((ℓ ↦{fullShare.left} f) ∗ (ℓ ↦{fullShare.right} f)) : sProp 𝕄) ⊢ (ℓ ↦{fullShare} f) :=
  (pointsTo_share (PosShare.mem_left_op_right fullShare)).2

section
variable (V : (c : Dev nD) → (b : Ref sig .tc) → Buf (Elt F) ((c : Thread nD τ).loc b))

/-- The first call's arrays, window by window: queries and gates are the two halves of the first argument, keys and values
    the two halves of the second; the result array whole. -/
theorem arrays0_eq (c : Dev nD) (Fs : (w : Fin cfg0.W) → Buf (Elt F) ((cfg0.win w).arr.view.loc (c : Thread nD τ))) :
    ((dat0 V c).arrays Fs : sProp 𝕄)
      = iprop((((c : Thread nD τ).loc main_arg0) ↦{fullShare.left} Fs 0) ∗ (((c : Thread nD τ).loc main_arg1) ↦{fullShare.left} Fs 1)
          ∗ (((c : Thread nD τ).loc main_arg1) ↦{fullShare.right} Fs 2) ∗ (((c : Thread nD τ).loc main_arg0) ↦{fullShare.right} Fs 3)
          ∗ (((c : Thread nD τ).loc main_v0) ↦{fullShare} Fs 4)) := by
  unfold Dat.arrays
  rw [show (bigSep Finset.univ fun w : Fin cfg0.W => ((cfg0.win w).arr.view.loc (c : Thread nD τ) ↦[(cfg0.win w).arr.view.set]{(dat0 V c).share w} Fs w : sProp 𝕄))
        = bigSep Finset.univ fun w : Fin cfg0.W => (((c : Thread nD τ).loc (Pipeline.arrRef spec0 w)) ↦{(dat0 V c).share w} Fs w : sProp 𝕄)
      from bigSep_congr fun w _ => by rw [(arr_whole0 w).set_eq_univ]]
  rw [bigSep_W0]
  rfl

/-- The second call's, with the arguments' roles exchanged. -/
theorem arrays1_eq (c : Dev nD) (Fs : (w : Fin cfg1.W) → Buf (Elt F) ((cfg1.win w).arr.view.loc (c : Thread nD τ))) :
    ((dat1 V c).arrays Fs : sProp 𝕄)
      = iprop((((c : Thread nD τ).loc main_arg1) ↦{fullShare.left} Fs 0) ∗ (((c : Thread nD τ).loc main_arg0) ↦{fullShare.left} Fs 1)
          ∗ (((c : Thread nD τ).loc main_arg0) ↦{fullShare.right} Fs 2) ∗ (((c : Thread nD τ).loc main_arg1) ↦{fullShare.right} Fs 3)
          ∗ (((c : Thread nD τ).loc main_v1) ↦{fullShare} Fs 4)) := by
  unfold Dat.arrays
  rw [show (bigSep Finset.univ fun w : Fin cfg1.W => ((cfg1.win w).arr.view.loc (c : Thread nD τ) ↦[(cfg1.win w).arr.view.set]{(dat1 V c).share w} Fs w : sProp 𝕄))
        = bigSep Finset.univ fun w : Fin cfg1.W => (((c : Thread nD τ).loc (Pipeline.arrRef spec1 w)) ↦{(dat1 V c).share w} Fs w : sProp 𝕄)
      from bigSep_congr fun w _ => by rw [(arr_whole1 w).set_eq_univ]]
  rw [bigSep_W1]
  rfl
end

/-! ## The proof data family and the thread state -/

/-- No call has a prefetched table. -/
abbrev adm : (p : Fin 2) → (pcfgs (F := F) p).Adm := fun p => (cfgs p).toPCfg_adm
/-- Each call's proof data at its entry contents: a literal match on the call. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- CALL 0 over the thread state: entered from every unscoped buffer at `W0`, left at `W1`. At entry the two
    arrays that two windows read are each dealt as the two halves of the full share; at exit the halves, still at the
    entry contents, are joined back, and the result array is held at what the write-backs left. The generator register
    goes into the invariant and comes out; nothing is owed; the kernel names no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := iprop((((c : Thread nD τ).loc main_v1) ↦{fullShare} W0 m c main_v1) ∗ (((c : Thread nD τ).loc main_v2) ↦{fullShare} W0 m c main_v2))
  hentry c := by
    rw [Pipeline.ownSems0_none, held_uc, show (pdats m 0 c) = dat0 (V0 m) c from rfl, arrays0_eq]
    iintro ⟨⟨⟨Ha0, Ha1, Hv0, Hv1, Hv2⟩, Hp, HO⟩, -, -⟩
    ihave Ha0' := (halve (F := F) (ℓ := (c : Thread nD τ).loc main_arg0) _) $$ Ha0
    icases Ha0' with ⟨Ha0l, Ha0r⟩
    ihave Ha1' := (halve (F := F) (ℓ := (c : Thread nD τ).loc main_arg1) _) $$ Ha1
    icases Ha1' with ⟨Ha1l, Ha1r⟩
    imodintro
    isplitl [Ha0l Ha0r Ha1l Ha1r Hv0]
    · isplitl [Ha0l]; · iexact Ha0l
      isplitl [Ha1l]; · iexact Ha1l
      isplitl [Ha1r]; · iexact Ha1r
      isplitl [Ha0r]; · iexact Ha0r
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hv1]; · iexact Hv1
    iexact Hv2
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_uc, show (pdats m 0 c) = dat0 (V0 m) c from rfl, arrays0_eq,
      show (dat0 (V0 m) c).arrAt 0 (Pipeline.pin (pcfgs (F := F)) adm 0).N = W0 m c main_arg0 from (dat0 (V0 m) c).arrAt_in 0 rfl _,
      show (dat0 (V0 m) c).arrAt 1 (Pipeline.pin (pcfgs (F := F)) adm 0).N = W0 m c main_arg1 from (dat0 (V0 m) c).arrAt_in 1 rfl _,
      show (dat0 (V0 m) c).arrAt 2 (Pipeline.pin (pcfgs (F := F)) adm 0).N = W0 m c main_arg1 from (dat0 (V0 m) c).arrAt_in 2 rfl _,
      show (dat0 (V0 m) c).arrAt 3 (Pipeline.pin (pcfgs (F := F)) adm 0).N = W0 m c main_arg0 from (dat0 (V0 m) c).arrAt_in 3 rfl _,
      W1_arg0, W1_arg1, W1_out, W1_v1, W1_v2]
    iintro ⟨⟨Hql, Hkl, Hkr, Hqr, Hout⟩, HO, HY, ⟨HzA, HzB⟩⟩
    ihave Hq := (unhalve (F := F) _) $$ [Hql Hqr]
    · isplitl [Hql]; · iexact Hql
      iexact Hqr
    ihave Hk := (unhalve (F := F) _) $$ [Hkl Hkr]
    · isplitl [Hkl]; · iexact Hkl
      iexact Hkr
    imodintro
    isplitl [Hq Hk Hout HzA HzB]
    · isplitl [Hq]; · iexact Hq
      isplitl [Hk]; · iexact Hk
      isplitl [Hout]; · iexact Hout
      isplitl [HzA]; · iexact HzA
      iexact HzB
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W1`, left at `W2`. At entry the two
    arrays that two windows read are each dealt as the two halves of the full share; at exit the halves, still at the
    entry contents, are joined back, and the result array is held at what the write-backs left. The generator register
    goes into the invariant and comes out; nothing is owed; the kernel names no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := iprop((((c : Thread nD τ).loc main_v0) ↦{fullShare} W1 m c main_v0) ∗ (((c : Thread nD τ).loc main_v2) ↦{fullShare} W1 m c main_v2))
  hentry c := by
    rw [Pipeline.ownSems0_none, held_uc, show (pdats m 1 c) = dat1 (V1 m) c from rfl, arrays1_eq]
    iintro ⟨⟨⟨Ha0, Ha1, Hv0, Hv1, Hv2⟩, Hp, HO⟩, -, -⟩
    ihave Ha0' := (halve (F := F) (ℓ := (c : Thread nD τ).loc main_arg0) _) $$ Ha0
    icases Ha0' with ⟨Ha0l, Ha0r⟩
    ihave Ha1' := (halve (F := F) (ℓ := (c : Thread nD τ).loc main_arg1) _) $$ Ha1
    icases Ha1' with ⟨Ha1l, Ha1r⟩
    imodintro
    isplitl [Ha0l Ha0r Ha1l Ha1r Hv1]
    · isplitl [Ha1l]; · iexact Ha1l
      isplitl [Ha0l]; · iexact Ha0l
      isplitl [Ha0r]; · iexact Ha0r
      isplitl [Ha1r]; · iexact Ha1r
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hv0]; · iexact Hv0
    iexact Hv2
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_uc, show (pdats m 1 c) = dat1 (V1 m) c from rfl, arrays1_eq,
      show (dat1 (V1 m) c).arrAt 0 (Pipeline.pin (pcfgs (F := F)) adm 1).N = W1 m c main_arg1 from (dat1 (V1 m) c).arrAt_in 0 rfl _,
      show (dat1 (V1 m) c).arrAt 1 (Pipeline.pin (pcfgs (F := F)) adm 1).N = W1 m c main_arg0 from (dat1 (V1 m) c).arrAt_in 1 rfl _,
      show (dat1 (V1 m) c).arrAt 2 (Pipeline.pin (pcfgs (F := F)) adm 1).N = W1 m c main_arg0 from (dat1 (V1 m) c).arrAt_in 2 rfl _,
      show (dat1 (V1 m) c).arrAt 3 (Pipeline.pin (pcfgs (F := F)) adm 1).N = W1 m c main_arg1 from (dat1 (V1 m) c).arrAt_in 3 rfl _,
      W2_arg0, W2_arg1, W2_out, W2_v0, W2_v2]
    iintro ⟨⟨Hql, Hkl, Hkr, Hqr, Hout⟩, HO, HY, ⟨HzA, HzB⟩⟩
    ihave Hq := (unhalve (F := F) _) $$ [Hql Hqr]
    · isplitl [Hql]; · iexact Hql
      iexact Hqr
    ihave Hk := (unhalve (F := F) _) $$ [Hkl Hkr]
    · isplitl [Hkl]; · iexact Hkl
      iexact Hkr
    imodintro
    isplitl [Hq Hk Hout HzA HzB]
    · isplitl [Hk]; · iexact Hk
      isplitl [Hq]; · iexact Hq
      isplitl [HzA]; · iexact HzA
      isplitl [Hout]; · iexact Hout
      iexact HzB
    isplitl [HY]; · iexact HY
    unfold Pipeline.Dat.owesAt Pipeline.owesWithin
    icases HO with ⟨%W, -, HO⟩; iexists W; iexact HO

/-- The concatenate as a segment, from the contents the second call leaves. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- The program's three items in order. -/
abbrev segs : List (Pipeline.Seg (pcfgs (F := F)) adm (pdats m) () defs₀ 𝒱₀ L lv) :=
  [ .region (reg0 m), .region (reg1 m), .host (hseg2 m) ]

/-- The last thread state without the dues: every unscoped buffer at the final contents, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN, at any float instance: from any memory with zero counters every weakly fair execution of the program
    terminates, nothing faulting, and every final memory holds each unscoped buffer at the final contents `W3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

/-- The run with the output named: the output array ends at the two calls' result arrays side by side, each the fold of
    its call's 64 written blocks; the arguments end as launched. -/
theorem run_out (ρ : Dev nD → PrngReg) : θ_run defs (onTc (τ := τ) (main (F := F))) ⟨m, fun _ => 0, ρ⟩ (fun r => ∀ c : Dev nD,
      r.2.mem ((c.tc : Thread nD τ).loc main_v2)
        = concatenate S8x2048x256 2 [⟨S8x2048x128, (dat0 (V0 m) c).arrAt 4 cfg0.N⟩, ⟨S8x2048x128, (dat1 (V1 m) c).arrAt 4 cfg1.N⟩]
            concatenates_S8x2048x128_S8x2048x128_S8x2048x256_d2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c)⟩) (run_all m ρ)

end Cert.KernelIdeal.Hand

end
-- ==== Proof.Spec.lean ====
/-
  Gated softmax attention, one query row at a time, on the extended reals.

  For a query row `q : Fin D → EReal`, key rows `k : Fin T → Fin D → EReal`, value rows `v` of the same
  extents and a gate row `g : Fin D → EReal`:
    score t   = ∑ d, q d · k t d                      (the row of q·kᵀ)
    rowMax    = the maximum of the scores, folded from ⊥
    weight t  = exp (score t − rowMax)
    rowSum    = ∑ t, weight t
    mix d     = ∑ t, (weight t / rowSum) · v t d       (the softmax row times v)
    gatedRow d = mix d · g d
  `pass q k v g` is this row function laid over arrays of extents [8, 2048, 128]: batch `b`, query row `s`,
  feature `d`, the keys and values being all 2048 rows of the same batch. `passArr` is `pass` as an array.
  Nothing here mentions a program: both programs' results are shown to be these functions.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

section Row

variable {T D : Nat}

/-- One entry of the row q·kᵀ. -/
def score (q : Fin D → EReal) (k : Fin T → Fin D → EReal) (t : Fin T) : EReal := ∑ d : Fin D, q d * k t d

/-- The row's maximum, folded from ⊥ (the value of the f32 pattern of −∞). -/
def rowMax (q : Fin D → EReal) (k : Fin T → Fin D → EReal) : EReal :=
  (Finset.univ : Finset (Fin T)).fold max ⊥ (score q k)

/-- The unnormalized softmax weight of key row `t`. -/
def weight (q : Fin D → EReal) (k : Fin T → Fin D → EReal) (t : Fin T) : EReal :=
  Ideal.exp (score q k t - rowMax q k)

/-- The normalizer. -/
def rowSum (q : Fin D → EReal) (k : Fin T → Fin D → EReal) : EReal := ∑ t : Fin T, weight q k t

/-- The softmax row times the values, at feature `d`. -/
def mix (q : Fin D → EReal) (k v : Fin T → Fin D → EReal) (d : Fin D) : EReal :=
  ∑ t : Fin T, Ideal.div (weight q k t) (rowSum q k) * v t d

/-- ... gated elementwise. -/
def gatedRow (q : Fin D → EReal) (k v : Fin T → Fin D → EReal) (g : Fin D → EReal) (d : Fin D) : EReal :=
  mix q k v d * g d

end Row

/-- The arrays' shape: batch, row, feature. -/
abbrev A : Shape := ⟨3, ![8, 2048, 128]⟩

/-- One attention pass over whole arrays at (batch, query row, feature). -/
def pass (q k v g : A.Idx → EReal) (b : Fin 8) (s : Fin 2048) (d : Fin 128) : EReal :=
  gatedRow (fun d' => q (ix3 b s d')) (fun t d' => k (ix3 b t d')) (fun t d' => v (ix3 b t d')) (fun d' => g (ix3 b s d')) d

/-- The pass as an array. -/
def passArr (q k v g : A.Idx → EReal) : A.Idx → EReal := fun i => pass q k v g (i 0) (i 1) (i 2)

theorem passArr_ix3 (q k v g : A.Idx → EReal) (b : Fin 8) (s : Fin 2048) (d : Fin 128) :
    passArr q k v g (ix3 b s d) = pass q k v g b s d := rfl

end Cert.Attn

end
-- ==== Proof.KIValue.lean ====
/-
  From blocks to arrays: what each of the two attention calls leaves in its result array.

  A call runs on an 8 × 8 grid. The point of batch b and row block i writes back one [1, 256, 128] block of the
  result array, at block index (b, i, 0); it reads the query and gate blocks at the same block index of their
  array, and the key and value blocks [1, 2048, 128] at block index (b, 0, 0) of theirs: all 2048 rows of batch b.
  A block's entry at coordinate y on an axis lies in the array at (block index) · (block size) + y on that axis.
  So if the body's result at (0, r, d) is the gated softmax row of the query block's row r against the key and value
  blocks, then what the point writes back is the block (b, i, 0) of the whole-array attention pass; and since
  every index (b, s, d) of the array lies in the block of the point (b, s / 256), the array ends as that pass.
-/
import proofs.«151700_j76364518523410_1_alg».proof.Proof.KIBody
import proofs.«151700_j76364518523410_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.HandValue

open Cert.KernelIdeal Cert.KernelIdeal.Gen Cert.KernelIdeal.Hand Cert.Attn
open Idealize.ShloMosaic Idealize.ShloMosaic.TcCoe Idealize.ShloMosaic.ValueIdx Idealize.SL.Sem
open Idealize.ShloMosaic.Pipeline (Dat Cfg Window)

/-- The whole-buffer rectangles' offsets are zero on every axis. -/
theorem offsets_zero : (![0, 0, 0] : Fin 3 → Nat) = fun _ => 0 := funext fun a => by fin_cases a <;> rfl

/-! # Call 0 -/

/-- Call 0's block-index maps, checked at each of its 64 grid points: the query and gate blocks move with the result
    block; the key and value blocks are the whole batch of the result block; no block is offset on the feature axis. -/
theorem index_facts0 : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 :=
  (by decide +kernel : ∀ t : Fin grid0.N, _)

/-- The result block's batch index is below 8, -/
theorem batch_lt0 : ∀ t : Fin cfg0.N, win0_4.index t (0 : Fin 3) < 8 :=
  (by decide +kernel : ∀ t : Fin grid0.N, _)
/-- and its row-block index is below 8. -/
theorem rowBlock_lt0 : ∀ t : Fin cfg0.N, win0_4.index t (1 : Fin 3) < 8 :=
  (by decide +kernel : ∀ t : Fin grid0.N, _)

/-- Every (batch, row block) is SOME point's result block. -/
theorem index_onto0 : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- The batch point t works on. -/
def batchOf0 (t : Fin cfg0.N) : Fin 8 := ⟨win0_4.index t (0 : Fin 3), batch_lt0 t⟩
/-- The array's row that row r of point t's query block is: 256 · (row block) + r. -/
def rowOf0 (t : Fin cfg0.N) (r : Fin 256) : Fin 2048 :=
  ⟨win0_4.index t (1 : Fin 3) * 256 + r.val, by have := rowBlock_lt0 t; have := r.isLt; omega⟩

/-- Where the result block's entry (0, r, d) lies in the array. -/
theorem emb_result0 (t : Fin cfg0.N) (r : Fin 256) (d : Fin 128) :
    ((cfg0.win 4).blk t).view.emb (ix3 (0 : Fin 1) r d) = ix3 (batchOf0 t) (rowOf0 t r) d := by
  obtain ⟨-, -, -, -, -, -, -, -, -, -, -, -, z⟩ := index_facts0 t
  funext a; apply Fin.ext
  match a with
  | ⟨0, _⟩ => show win0_4.index t (0 : Fin 3) * 1 + 1 * 0 = win0_4.index t (0 : Fin 3); omega
  | ⟨1, _⟩ => show win0_4.index t (1 : Fin 3) * 256 + 1 * r.val = win0_4.index t (1 : Fin 3) * 256 + r.val; omega
  | ⟨2, _⟩ => show win0_4.index t (2 : Fin 3) * 128 + 1 * d.val = d.val; omega

/-- Where the query block's entry (0, r, d) lies in its array: the same place. -/
theorem emb_query0 (t : Fin cfg0.N) (r : Fin 256) (d : Fin 128) :
    ((cfg0.win 0).blk t).view.emb (ix3 (0 : Fin 1) r d) = ix3 (batchOf0 t) (rowOf0 t r) d := by
  obtain ⟨e0, e1, e2, -, -, -, -, -, -, -, -, -, -⟩ := index_facts0 t
  funext a; apply Fin.ext
  match a with
  | ⟨0, _⟩ => show win0_0.index t (0 : Fin 3) * 1 + 1 * 0 = win0_4.index t (0 : Fin 3); omega
  | ⟨1, _⟩ => show win0_0.index t (1 : Fin 3) * 256 + 1 * r.val = win0_4.index t (1 : Fin 3) * 256 + r.val; omega
  | ⟨2, _⟩ => show win0_0.index t (2 : Fin 3) * 128 + 1 * d.val = d.val; omega

/-- Where the gate block's entry (0, r, d) lies in its array: the same place again. -/
theorem emb_gate0 (t : Fin cfg0.N) (r : Fin 256) (d : Fin 128) :
    ((cfg0.win 3).blk t).view.emb (ix3 (0 : Fin 1) r d) = ix3 (batchOf0 t) (rowOf0 t r) d := by
  obtain ⟨-, -, -, -, -, -, -, -, -, e0, e1, e2, -⟩ := index_facts0 t
  funext a; apply Fin.ext
  match a with
  | ⟨0, _⟩ => show win0_3.index t (0 : Fin 3) * 1 + 1 * 0 = win0_4.index t (0 : Fin 3); omega
  | ⟨1, _⟩ => show win0_3.index t (1 : Fin 3) * 256 + 1 * r.val = win0_4.index t (1 : Fin 3) * 256 + r.val; omega
  | ⟨2, _⟩ => show win0_3.index t (2 : Fin 3) * 128 + 1 * d.val = d.val; omega

/-- Where the key block's entry (0, s, d) lies in its array: row s of the point's batch. -/
theorem emb_key0 (t : Fin cfg0.N) (s : Fin 2048) (d : Fin 128) :
    ((cfg0.win 1).blk t).view.emb (ix3 (0 : Fin 1) s d) = ix3 (batchOf0 t) s d := by
  obtain ⟨-, -, -, e0, e1, e2, -, -, -, -, -, -, -⟩ := index_facts0 t
  funext a; apply Fin.ext
  match a with
  | ⟨0, _⟩ => show win0_1.index t (0 : Fin 3) * 1 + 1 * 0 = win0_4.index t (0 : Fin 3); omega
  | ⟨1, _⟩ => show win0_1.index t (1 : Fin 3) * 2048 + 1 * s.val = s.val; omega
  | ⟨2, _⟩ => show win0_1.index t (2 : Fin 3) * 128 + 1 * d.val = d.val; omega

/-- Where the value block's entry (0, s, d) lies in its array: row s of the point's batch. -/
theorem emb_value0 (t : Fin cfg0.N) (s : Fin 2048) (d : Fin 128) :
    ((cfg0.win 2).blk t).view.emb (ix3 (0 : Fin 1) s d) = ix3 (batchOf0 t) s d := by
  obtain ⟨-, -, -, -, -, -, e0, e1, e2, -, -, -, -⟩ := index_facts0 t
  funext a; apply Fin.ext
  match a with
  | ⟨0, _⟩ => show win0_2.index t (0 : Fin 3) * 1 + 1 * 0 = win0_4.index t (0 : Fin 3); omega
  | ⟨1, _⟩ => show win0_2.index t (1 : Fin 3) * 2048 + 1 * s.val = s.val; omega
  | ⟨2, _⟩ => show win0_2.index t (2 : Fin 3) * 128 + 1 * d.val = d.val; omega

section
variable (V : (c : Dev nD) → (b : Ref sig .tc) → Buf (Elt Ideal) ((c : Thread nD τ).loc b)) (c : Dev nD)

/-- The query block read at (0, r, d) is the query array at (batch, row, d). -/
theorem query_apply0 (t : Fin cfg0.N) (r : Fin 256) (d : Fin 128) :
    iblk0 V c 0 t (ix3 (0 : Fin 1) r d) = V c main_arg0 (ix3 (batchOf0 t) (rowOf0 t r) d) := by
  show V c main_arg0 (((cfg0.win 0).blk t).view.emb (ix3 (0 : Fin 1) r d)) = _
  exact congrArg (V c main_arg0) (emb_query0 t r d)

/-- The gate block read at (0, r, d) is the same array at the same place. -/
theorem gate_apply0 (t : Fin cfg0.N) (r : Fin 256) (d : Fin 128) :
    iblk0 V c 3 t (ix3 (0 : Fin 1) r d) = V c main_arg0 (ix3 (batchOf0 t) (rowOf0 t r) d) := by
  show V c main_arg0 (((cfg0.win 3).blk t).view.emb (ix3 (0 : Fin 1) r d)) = _
  exact congrArg (V c main_arg0) (emb_gate0 t r d)

/-- The key block read at (0, s, d) is the key array at (batch, s, d). -/
theorem key_apply0 (t : Fin cfg0.N) (s : Fin 2048) (d : Fin 128) :
    iblk0 V c 1 t (ix3 (0 : Fin 1) s d) = V c main_arg1 (ix3 (batchOf0 t) s d) := by
  show V c main_arg1 (((cfg0.win 1).blk t).view.emb (ix3 (0 : Fin 1) s d)) = _
  exact congrArg (V c main_arg1) (emb_key0 t s d)

/-- The value block read at (0, s, d) is the same array at (batch, s, d). -/
theorem value_apply0 (t : Fin cfg0.N) (s : Fin 2048) (d : Fin 128) :
    iblk0 V c 2 t (ix3 (0 : Fin 1) s d) = V c main_arg1 (ix3 (batchOf0 t) s d) := by
  show V c main_arg1 (((cfg0.win 2).blk t).view.emb (ix3 (0 : Fin 1) s d)) = _
  exact congrArg (V c main_arg1) (emb_value0 t s d)

/-- WHAT POINT t WRITES BACK is block t of the attention pass of the arrays as the call finds them: queries and gates
    q, keys and values k. -/
theorem flushed0_eq (q k : S8x2048x128.Idx → EReal)
    (hpay : ∀ (x0 : Vec Ideal S1x256x128 .f32) (x1 x2 : Vec Ideal S1x2048x128 .f32) (x3 : Vec Ideal S1x256x128 .f32) (r : Fin 256) (d : Fin 128),
      k0_pay1 (F := Ideal) x0 x1 x2 x3 (ix3 0 r d)
        = gatedRow (fun d' => x0 (ix3 0 r d')) (fun t d' => x1 (ix3 0 t d')) (fun t d' => x2 (ix3 0 t d')) (fun d' => x3 (ix3 0 r d')) d)
    (hq : V c main_arg0 = q) (hk : V c main_arg1 = k) (t : Fin cfg0.N) :
    (dat0 (F := Ideal) V c).flushed 4 t = ((cfg0.win 4).blk t).view.read (Elt Ideal) (passArr q k k q) := by
  show (cfg0.win 4).cut (grid0.coords t) ((dat0 (F := Ideal) V c).after 4 t) = _
  rw [after0_4]
  unfold out0_4
  rw [View.canon_unit_zero offsets_zero]
  simp only [View.ld_unit_zero (S := S1x256x128) offsets_zero, View.ld_unit_zero (S := S1x2048x128) offsets_zero]
  refine funext fun (j : S1x256x128.Idx) => ?_
  obtain ⟨r, d, rfl⟩ : ∃ (r : Fin 256) (d : Fin 128), j = ix3 (0 : Fin 1) r d :=
    ⟨j 1, j 2, by have e := eq_ix3 j; rw [Fin.fin_one_eq_zero (j 0)] at e; exact e⟩
  show k0_pay1 (F := Ideal) (iblk0 V c 0 t) (iblk0 V c 1 t) (iblk0 V c 2 t) (iblk0 V c 3 t) (ix3 (0 : Fin 1) r d)
    = passArr q k k q (((cfg0.win 4).blk t).view.emb (ix3 (0 : Fin 1) r d))
  refine (hpay _ _ _ _ r d).trans ?_
  rw [emb_result0 t r d, passArr_ix3]
  unfold pass
  have eq : (fun d' : Fin 128 => iblk0 V c 0 t (ix3 (0 : Fin 1) r d')) = fun d' => q (ix3 (batchOf0 t) (rowOf0 t r) d') :=
    funext fun d' => (query_apply0 V c t r d').trans (congrFun hq _)
  have eg : (fun d' : Fin 128 => iblk0 V c 3 t (ix3 (0 : Fin 1) r d')) = fun d' => q (ix3 (batchOf0 t) (rowOf0 t r) d') :=
    funext fun d' => (gate_apply0 V c t r d').trans (congrFun hq _)
  have ek : (fun (s : Fin 2048) (d' : Fin 128) => iblk0 V c 1 t (ix3 (0 : Fin 1) s d')) = fun s d' => k (ix3 (batchOf0 t) s d') :=
    funext fun s => funext fun d' => (key_apply0 V c t s d').trans (congrFun hk _)
  have ev : (fun (s : Fin 2048) (d' : Fin 128) => iblk0 V c 2 t (ix3 (0 : Fin 1) s d')) = fun s d' => k (ix3 (batchOf0 t) s d') :=
    funext fun s => funext fun d' => (value_apply0 V c t s d').trans (congrFun hk _)
  rw [eq, eg, ek, ev]

end

/-- An index of the result array is in point t's block iff each coordinate is in the block's range on its axis. -/
theorem mem_block0 (t : Fin cfg0.N) (i : S8x2048x128.Idx) :
    i ∈ ((cfg0.win 4).blk t).view.set ↔ ∀ a : Fin 3, win0_4.index t a * S1x256x128.size a ≤ (i a).val ∧ (i a).val < win0_4.index t a * S1x256x128.size a + S1x256x128.size a := by
  show i ∈ ((View.whole main_v0).slice (win0_4.rect t)).set ↔ _
  rw [View.set_slice_whole, Rect.mem_set_unit]
  exact Iff.rfl

/-- Every index (b, s, d) of the result array is in the block of the point of batch b and row block s / 256. -/
theorem covered0 (i : S8x2048x128.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 128 := (i 2).isLt
  obtain ⟨t, ht⟩ := index_onto0 ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_block0]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 128 ≤ (i 2).val ∧ (i 2).val < win0_4.index t (2 : Fin 3) * 128 + 128; omega

/-! # Call 1 -/

/-- Call 1's block-index maps, checked at each of its 64 grid points: the query and gate blocks move with the result
    block; the key and value blocks are the whole batch of the result block; no block is offset on the feature axis. -/
theorem index_facts1 : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3)
    ∧ win1_3.index t (2 : Fin 3) = 0
    ∧ win1_4.index t (2 : Fin 3) = 0 :=
  (by decide +kernel : ∀ t : Fin grid1.N, _)

/-- The result block's batch index is below 8, -/
theorem batch_lt1 : ∀ t : Fin cfg1.N, win1_4.index t (0 : Fin 3) < 8 :=
  (by decide +kernel : ∀ t : Fin grid1.N, _)
/-- and its row-block index is below 8. -/
theorem rowBlock_lt1 : ∀ t : Fin cfg1.N, win1_4.index t (1 : Fin 3) < 8 :=
  (by decide +kernel : ∀ t : Fin grid1.N, _)

/-- Every (batch, row block) is SOME point's result block. -/
theorem index_onto1 : ∀ (q0 : Fin 8) (q1 : Fin 8), ∃ t : Fin cfg1.N, win1_4.index t = ![q0.val, q1.val, 0] :=
  (by decide +kernel : ∀ (q0 : Fin 8) (q1 : Fin 8), ∃ t : Fin grid1.N, win1_4.index t = ![q0.val, q1.val, 0])

/-- The batch point t works on. -/
def batchOf1 (t : Fin cfg1.N) : Fin 8 := ⟨win1_4.index t (0 : Fin 3), batch_lt1 t⟩
/-- The array's row that row r of point t's query block is: 256 · (row block) + r. -/
def rowOf1 (t : Fin cfg1.N) (r : Fin 256) : Fin 2048 :=
  ⟨win1_4.index t (1 : Fin 3) * 256 + r.val, by have := rowBlock_lt1 t; have := r.isLt; omega⟩

/-- Where the result block's entry (0, r, d) lies in the array. -/
theorem emb_result1 (t : Fin cfg1.N) (r : Fin 256) (d : Fin 128) :
    ((cfg1.win 4).blk t).view.emb (ix3 (0 : Fin 1) r d) = ix3 (batchOf1 t) (rowOf1 t r) d := by
  obtain ⟨-, -, -, -, -, -, -, -, -, -, -, -, z⟩ := index_facts1 t
  funext a; apply Fin.ext
  match a with
  | ⟨0, _⟩ => show win1_4.index t (0 : Fin 3) * 1 + 1 * 0 = win1_4.index t (0 : Fin 3); omega
  | ⟨1, _⟩ => show win1_4.index t (1 : Fin 3) * 256 + 1 * r.val = win1_4.index t (1 : Fin 3) * 256 + r.val; omega
  | ⟨2, _⟩ => show win1_4.index t (2 : Fin 3) * 128 + 1 * d.val = d.val; omega

/-- Where the query block's entry (0, r, d) lies in its array: the same place. -/
theorem emb_query1 (t : Fin cfg1.N) (r : Fin 256) (d : Fin 128) :
    ((cfg1.win 0).blk t).view.emb (ix3 (0 : Fin 1) r d) = ix3 (batchOf1 t) (rowOf1 t r) d := by
  obtain ⟨e0, e1, e2, -, -, -, -, -, -, -, -, -, -⟩ := index_facts1 t
  funext a; apply Fin.ext
  match a with
  | ⟨0, _⟩ => show win1_0.index t (0 : Fin 3) * 1 + 1 * 0 = win1_4.index t (0 : Fin 3); omega
  | ⟨1, _⟩ => show win1_0.index t (1 : Fin 3) * 256 + 1 * r.val = win1_4.index t (1 : Fin 3) * 256 + r.val; omega
  | ⟨2, _⟩ => show win1_0.index t (2 : Fin 3) * 128 + 1 * d.val = d.val; omega

/-- Where the gate block's entry (0, r, d) lies in its array: the same place again. -/
theorem emb_gate1 (t : Fin cfg1.N) (r : Fin 256) (d : Fin 128) :
    ((cfg1.win 3).blk t).view.emb (ix3 (0 : Fin 1) r d) = ix3 (batchOf1 t) (rowOf1 t r) d := by
  obtain ⟨-, -, -, -, -, -, -, -, -, e0, e1, e2, -⟩ := index_facts1 t
  funext a; apply Fin.ext
  match a with
  | ⟨0, _⟩ => show win1_3.index t (0 : Fin 3) * 1 + 1 * 0 = win1_4.index t (0 : Fin 3); omega
  | ⟨1, _⟩ => show win1_3.index t (1 : Fin 3) * 256 + 1 * r.val = win1_4.index t (1 : Fin 3) * 256 + r.val; omega
  | ⟨2, _⟩ => show win1_3.index t (2 : Fin 3) * 128 + 1 * d.val = d.val; omega

/-- Where the key block's entry (0, s, d) lies in its array: row s of the point's batch. -/
theorem emb_key1 (t : Fin cfg1.N) (s : Fin 2048) (d : Fin 128) :
    ((cfg1.win 1).blk t).view.emb (ix3 (0 : Fin 1) s d) = ix3 (batchOf1 t) s d := by
  obtain ⟨-, -, -, e0, e1, e2, -, -, -, -, -, -, -⟩ := index_facts1 t
  funext a; apply Fin.ext
  match a with
  | ⟨0, _⟩ => show win1_1.index t (0 : Fin 3) * 1 + 1 * 0 = win1_4.index t (0 : Fin 3); omega
  | ⟨1, _⟩ => show win1_1.index t (1 : Fin 3) * 2048 + 1 * s.val = s.val; omega
  | ⟨2, _⟩ => show win1_1.index t (2 : Fin 3) * 128 + 1 * d.val = d.val; omega

/-- Where the value block's entry (0, s, d) lies in its array: row s of the point's batch. -/
theorem emb_value1 (t : Fin cfg1.N) (s : Fin 2048) (d : Fin 128) :
    ((cfg1.win 2).blk t).view.emb (ix3 (0 : Fin 1) s d) = ix3 (batchOf1 t) s d := by
  obtain ⟨-, -, -, -, -, -, e0, e1, e2, -, -, -, -⟩ := index_facts1 t
  funext a; apply Fin.ext
  match a with
  | ⟨0, _⟩ => show win1_2.index t (0 : Fin 3) * 1 + 1 * 0 = win1_4.index t (0 : Fin 3); omega
  | ⟨1, _⟩ => show win1_2.index t (1 : Fin 3) * 2048 + 1 * s.val = s.val; omega
  | ⟨2, _⟩ => show win1_2.index t (2 : Fin 3) * 128 + 1 * d.val = d.val; omega

section
variable (V : (c : Dev nD) → (b : Ref sig .tc) → Buf (Elt Ideal) ((c : Thread nD τ).loc b)) (c : Dev nD)

/-- The query block read at (0, r, d) is the query array at (batch, row, d). -/
theorem query_apply1 (t : Fin cfg1.N) (r : Fin 256) (d : Fin 128) :
    iblk1 V c 0 t (ix3 (0 : Fin 1) r d) = V c main_arg1 (ix3 (batchOf1 t) (rowOf1 t r) d) := by
  show V c main_arg1 (((cfg1.win 0).blk t).view.emb (ix3 (0 : Fin 1) r d)) = _
  exact congrArg (V c main_arg1) (emb_query1 t r d)

/-- The gate block read at (0, r, d) is the same array at the same place. -/
theorem gate_apply1 (t : Fin cfg1.N) (r : Fin 256) (d : Fin 128) :
    iblk1 V c 3 t (ix3 (0 : Fin 1) r d) = V c main_arg1 (ix3 (batchOf1 t) (rowOf1 t r) d) := by
  show V c main_arg1 (((cfg1.win 3).blk t).view.emb (ix3 (0 : Fin 1) r d)) = _
  exact congrArg (V c main_arg1) (emb_gate1 t r d)

/-- The key block read at (0, s, d) is the key array at (batch, s, d). -/
theorem key_apply1 (t : Fin cfg1.N) (s : Fin 2048) (d : Fin 128) :
    iblk1 V c 1 t (ix3 (0 : Fin 1) s d) = V c main_arg0 (ix3 (batchOf1 t) s d) := by
  show V c main_arg0 (((cfg1.win 1).blk t).view.emb (ix3 (0 : Fin 1) s d)) = _
  exact congrArg (V c main_arg0) (emb_key1 t s d)

/-- The value block read at (0, s, d) is the same array at (batch, s, d). -/
theorem value_apply1 (t : Fin cfg1.N) (s : Fin 2048) (d : Fin 128) :
    iblk1 V c 2 t (ix3 (0 : Fin 1) s d) = V c main_arg0 (ix3 (batchOf1 t) s d) := by
  show V c main_arg0 (((cfg1.win 2).blk t).view.emb (ix3 (0 : Fin 1) s d)) = _
  exact congrArg (V c main_arg0) (emb_value1 t s d)

/-- WHAT POINT t WRITES BACK is block t of the attention pass of the arrays as the call finds them: queries and gates
    q, keys and values k. -/
theorem flushed1_eq (q k : S8x2048x128.Idx → EReal)
    (hpay : ∀ (x0 : Vec Ideal S1x256x128 .f32) (x1 x2 : Vec Ideal S1x2048x128 .f32) (x3 : Vec Ideal S1x256x128 .f32) (r : Fin 256) (d : Fin 128),
      k1_pay1 (F := Ideal) x0 x1 x2 x3 (ix3 0 r d)
        = gatedRow (fun d' => x0 (ix3 0 r d')) (fun t d' => x1 (ix3 0 t d')) (fun t d' => x2 (ix3 0 t d')) (fun d' => x3 (ix3 0 r d')) d)
    (hq : V c main_arg1 = q) (hk : V c main_arg0 = k) (t : Fin cfg1.N) :
    (dat1 (F := Ideal) V c).flushed 4 t = ((cfg1.win 4).blk t).view.read (Elt Ideal) (passArr q k k q) := by
  show (cfg1.win 4).cut (grid1.coords t) ((dat1 (F := Ideal) V c).after 4 t) = _
  rw [after1_4]
  unfold out1_4
  rw [View.canon_unit_zero offsets_zero]
  simp only [View.ld_unit_zero (S := S1x256x128) offsets_zero, View.ld_unit_zero (S := S1x2048x128) offsets_zero]
  refine funext fun (j : S1x256x128.Idx) => ?_
  obtain ⟨r, d, rfl⟩ : ∃ (r : Fin 256) (d : Fin 128), j = ix3 (0 : Fin 1) r d :=
    ⟨j 1, j 2, by have e := eq_ix3 j; rw [Fin.fin_one_eq_zero (j 0)] at e; exact e⟩
  show k1_pay1 (F := Ideal) (iblk1 V c 0 t) (iblk1 V c 1 t) (iblk1 V c 2 t) (iblk1 V c 3 t) (ix3 (0 : Fin 1) r d)
    = passArr q k k q (((cfg1.win 4).blk t).view.emb (ix3 (0 : Fin 1) r d))
  refine (hpay _ _ _ _ r d).trans ?_
  rw [emb_result1 t r d, passArr_ix3]
  unfold pass
  have eq : (fun d' : Fin 128 => iblk1 V c 0 t (ix3 (0 : Fin 1) r d')) = fun d' => q (ix3 (batchOf1 t) (rowOf1 t r) d') :=
    funext fun d' => (query_apply1 V c t r d').trans (congrFun hq _)
  have eg : (fun d' : Fin 128 => iblk1 V c 3 t (ix3 (0 : Fin 1) r d')) = fun d' => q (ix3 (batchOf1 t) (rowOf1 t r) d') :=
    funext fun d' => (gate_apply1 V c t r d').trans (congrFun hq _)
  have ek : (fun (s : Fin 2048) (d' : Fin 128) => iblk1 V c 1 t (ix3 (0 : Fin 1) s d')) = fun s d' => k (ix3 (batchOf1 t) s d') :=
    funext fun s => funext fun d' => (key_apply1 V c t s d').trans (congrFun hk _)
  have ev : (fun (s : Fin 2048) (d' : Fin 128) => iblk1 V c 2 t (ix3 (0 : Fin 1) s d')) = fun s d' => k (ix3 (batchOf1 t) s d') :=
    funext fun s => funext fun d' => (value_apply1 V c t s d').trans (congrFun hk _)
  rw [eq, eg, ek, ev]

end

/-- An index of the result array is in point t's block iff each coordinate is in the block's range on its axis. -/
theorem mem_block1 (t : Fin cfg1.N) (i : S8x2048x128.Idx) :
    i ∈ ((cfg1.win 4).blk t).view.set ↔ ∀ a : Fin 3, win1_4.index t a * S1x256x128.size a ≤ (i a).val ∧ (i a).val < win1_4.index t a * S1x256x128.size a + S1x256x128.size a := by
  show i ∈ ((View.whole main_v1).slice (win1_4.rect t)).set ↔ _
  rw [View.set_slice_whole, Rect.mem_set_unit]
  exact Iff.rfl

/-- Every index (b, s, d) of the result array is in the block of the point of batch b and row block s / 256. -/
theorem covered1 (i : S8x2048x128.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 128 := (i 2).isLt
  obtain ⟨t, ht⟩ := index_onto1 ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_block1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 128 ≤ (i 2).val ∧ (i 2).val < win1_4.index t (2 : Fin 3) * 128 + 128; omega

/-! # The result arrays -/

section
variable (V : (c : Dev nD) → (b : Ref sig .tc) → Buf (Elt Ideal) ((c : Thread nD τ).loc b)) (c : Dev nD)

/-- THE RESULT ARRAY of call 0 after its run: the pass with queries x, keys y, values y, gates x. -/
theorem final0_of (x y : S8x2048x128.Idx → EReal)
    (hpay : ∀ (x0 : Vec Ideal S1x256x128 .f32) (x1 x2 : Vec Ideal S1x2048x128 .f32) (x3 : Vec Ideal S1x256x128 .f32) (r : Fin 256) (d : Fin 128),
      k0_pay1 (F := Ideal) x0 x1 x2 x3 (ix3 0 r d)
        = gatedRow (fun d' => x0 (ix3 0 r d')) (fun t d' => x1 (ix3 0 t d')) (fun t d' => x2 (ix3 0 t d')) (fun d' => x3 (ix3 0 r d')) d)
    (hx : V c main_arg0 = x) (hy : V c main_arg1 = y) :
    (dat0 (F := Ideal) V c).arrAt 4 cfg0.N = passArr x y y x :=
  (dat0 (F := Ideal) V c).arrAt_eq_of_cover 4 (passArr x y y x) (fun t _ => flushed0_eq V c x y hpay hx hy t) covered0

/-- THE RESULT ARRAY of call 1 after its run: the pass with queries y, keys x, values x, gates y. -/
theorem final1_of (x y : S8x2048x128.Idx → EReal)
    (hpay : ∀ (x0 : Vec Ideal S1x256x128 .f32) (x1 x2 : Vec Ideal S1x2048x128 .f32) (x3 : Vec Ideal S1x256x128 .f32) (r : Fin 256) (d : Fin 128),
      k1_pay1 (F := Ideal) x0 x1 x2 x3 (ix3 0 r d)
        = gatedRow (fun d' => x0 (ix3 0 r d')) (fun t d' => x1 (ix3 0 t d')) (fun t d' => x2 (ix3 0 t d')) (fun d' => x3 (ix3 0 r d')) d)
    (hx : V c main_arg0 = x) (hy : V c main_arg1 = y) :
    (dat1 (F := Ideal) V c).arrAt 4 cfg1.N = passArr y x x y :=
  (dat1 (F := Ideal) V c).arrAt_eq_of_cover 4 (passArr y x x y) (fun t _ => flushed1_eq V c y x hpay hy hx t) covered1

end

end Cert.KernelIdeal.HandValue

end
-- ==== Proof.PayValue.lean ====
/-
  The kernel's stored block, one element at a time.

  Each program instance computes, from a query block q [256,128], the keys k [2048,128] and values v [2048,128] of its
  batch and a gate block g [256,128], the block
      softmax(q·kᵀ) · v ⊙ g .
  Read at row r and feature d at the ideal values (every operation exact, the format changes the identity):
      scores   s(r,t) = ∑ c, q(r,c) · k(t,c)
      row max  m(r)   = fold of max from ⊥ over t of s(r,t)
      weights  w(r,t) = exp (s(r,t) − m(r))
      row sum  z(r)   = ∑ t, w(r,t)
      mix      o(r,d) = ∑ t, (w(r,t) / z(r)) · v(t,d)
      stored   o(r,d) · g(r,d)
  which is the specification's gated row of q's row r against k, v and g's row r.
  The lemmas below read each non-pointwise operation (the two matrix products, the two row reductions, the
  column forms [256] → [256,1] → [256,2048], the casts between [1,a,b] and [a,b], the transpose) at explicit
  coordinates; the final theorems chain them.
-/
import proofs.«151700_j76364518523410_1_alg».proof.Proof.Gen.KernelIdeal.Skeleton
import proofs.«151700_j76364518523410_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx Idealize.SL.Sem

/-! ## A column of row values spread over the row: [a] → [a,1] → [a,b] -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The exponential at an index -/

/-- The exponential of a vector at an index is the ideal exponential of the element. -/
theorem exp_apply {s : Shape} {φ : FTy} (a : FVec Ideal s φ) (i : s.Idx) : exp a i = Ideal.exp (a i) := rfl

/-! ## The f32 pattern of −∞ -/

/-- The accumulator word of the row maximum denotes `⊥`. -/
theorem ofBits_negInf_f32 : FloatOps.ofBits (F := Ideal) .f32 0xFF800000#32 = (⊥ : EReal) := by
  show Ideal.ofBits .f32 0xFF800000#32 = ⊥
  simp [Ideal.ofBits, Ideal.ieee]

/-! ## The two matrix products at an index -/

section Scores
/-- Row coordinate of the left operand's index in q·kᵀ: the result's row. -/
theorem scores_lhs_0 (j : S256x2048.Idx) (q : dot_S256x128_S128x2048_S256x2048_1_0_0_1_n_n.contr.Idx) :
    (dot_S256x128_S128x2048_S256x2048_1_0_0_1_n_n.lhsIdx j q 0).val = (j 0).val := by
  unfold DotDims.lhsIdx
  rw [dif_neg (show ¬(0 : Fin S256x128.rank) ∈ dot_S256x128_S128x2048_S256x2048_1_0_0_1_n_n.lhsBatch by decide),
    dif_pos (show (0 : Fin S256x128.rank) ∈ dot_S256x128_S128x2048_S256x2048_1_0_0_1_n_n.lhsNonContracting by decide)]
  rfl
/-- Column coordinate of the left operand's index: the contraction position. -/
theorem scores_lhs_1 (j : S256x2048.Idx) (q : dot_S256x128_S128x2048_S256x2048_1_0_0_1_n_n.contr.Idx) :
    (dot_S256x128_S128x2048_S256x2048_1_0_0_1_n_n.lhsIdx j q 1).val = (q ⟨0, by decide⟩).val :=
  dot_S256x128_S128x2048_S256x2048_1_0_0_1_n_n.lhsIdx_val_of_single rfl j q
/-- Row coordinate of the right operand's index: the contraction position. -/
theorem scores_rhs_0 (j : S256x2048.Idx) (q : dot_S256x128_S128x2048_S256x2048_1_0_0_1_n_n.contr.Idx) :
    (dot_S256x128_S128x2048_S256x2048_1_0_0_1_n_n.rhsIdx j q 0).val = (q ⟨0, by decide⟩).val :=
  dot_S256x128_S128x2048_S256x2048_1_0_0_1_n_n.rhsIdx_val_of_single rfl j q
/-- Column coordinate of the right operand's index: the result's column. -/
theorem scores_rhs_1 (j : S256x2048.Idx) (q : dot_S256x128_S128x2048_S256x2048_1_0_0_1_n_n.contr.Idx) :
    (dot_S256x128_S128x2048_S256x2048_1_0_0_1_n_n.rhsIdx j q 1).val = (j 1).val := by
  unfold DotDims.rhsIdx
  rw [dif_neg (show ¬(1 : Fin S128x2048.rank) ∈ dot_S256x128_S128x2048_S256x2048_1_0_0_1_n_n.rhsBatch by decide),
    dif_pos (show (1 : Fin S128x2048.rank) ∈ dot_S256x128_S128x2048_S256x2048_1_0_0_1_n_n.rhsNonContracting by decide)]
  rfl

/-- The first product q·kᵀ, into the zero block: at `(r, t)` the sum over the 128 features of the products. -/
theorem matmul_scores_apply (a : FVec Ideal S256x128 .bf16) (b : FVec Ideal S128x2048 .bf16) (r : Fin 256) (t : Fin 2048) :
    matmul dot_S256x128_S128x2048_S256x2048_1_0_0_1_n_n none a b (constant (F := Ideal) S256x2048 .f32 0x00000000#32) (ix2 r t)
      = ∑ c : Fin 128, a (ix2 r c) * b (ix2 c t) := by
  simp only [matmul]
  rw [Ideal.matmul_constant_zero_apply,
    ← Equiv.sum_comp (contrEquiv1 dot_S256x128_S128x2048_S256x2048_1_0_0_1_n_n 128 rfl rfl).symm]
  refine Finset.sum_congr rfl fun c _ => ?_
  have hc := contrEquiv1_symm_val dot_S256x128_S128x2048_S256x2048_1_0_0_1_n_n 128 rfl rfl c
  have el : dot_S256x128_S128x2048_S256x2048_1_0_0_1_n_n.lhsIdx (ix2 r t)
      ((contrEquiv1 dot_S256x128_S128x2048_S256x2048_1_0_0_1_n_n 128 rfl rfl).symm c) = ix2 r c :=
    funext fun ax => Fin.ext (by
      match ax with
      | ⟨0, _⟩ => exact scores_lhs_0 _ _
      | ⟨1, _⟩ => exact (scores_lhs_1 _ _).trans hc)
  have er : dot_S256x128_S128x2048_S256x2048_1_0_0_1_n_n.rhsIdx (ix2 r t)
      ((contrEquiv1 dot_S256x128_S128x2048_S256x2048_1_0_0_1_n_n 128 rfl rfl).symm c) = ix2 c t :=
    funext fun ax => Fin.ext (by
      match ax with
      | ⟨0, _⟩ => exact (scores_rhs_0 _ _).trans hc
      | ⟨1, _⟩ => exact scores_rhs_1 _ _)
  rw [el, er]
end Scores

section Mix
/-- Row coordinate of the left operand's index in p·v: the result's row. -/
theorem mix_lhs_0 (j : S256x128.Idx) (q : dot_S256x2048_S2048x128_S256x128_1_0_0_1_n_n.contr.Idx) :
    (dot_S256x2048_S2048x128_S256x128_1_0_0_1_n_n.lhsIdx j q 0).val = (j 0).val := by
  unfold DotDims.lhsIdx
  rw [dif_neg (show ¬(0 : Fin S256x2048.rank) ∈ dot_S256x2048_S2048x128_S256x128_1_0_0_1_n_n.lhsBatch by decide),
    dif_pos (show (0 : Fin S256x2048.rank) ∈ dot_S256x2048_S2048x128_S256x128_1_0_0_1_n_n.lhsNonContracting by decide)]
  rfl
/-- Column coordinate of the left operand's index: the contraction position. -/
theorem mix_lhs_1 (j : S256x128.Idx) (q : dot_S256x2048_S2048x128_S256x128_1_0_0_1_n_n.contr.Idx) :
    (dot_S256x2048_S2048x128_S256x128_1_0_0_1_n_n.lhsIdx j q 1).val = (q ⟨0, by decide⟩).val :=
  dot_S256x2048_S2048x128_S256x128_1_0_0_1_n_n.lhsIdx_val_of_single rfl j q
/-- Row coordinate of the right operand's index: the contraction position. -/
theorem mix_rhs_0 (j : S256x128.Idx) (q : dot_S256x2048_S2048x128_S256x128_1_0_0_1_n_n.contr.Idx) :
    (dot_S256x2048_S2048x128_S256x128_1_0_0_1_n_n.rhsIdx j q 0).val = (q ⟨0, by decide⟩).val :=
  dot_S256x2048_S2048x128_S256x128_1_0_0_1_n_n.rhsIdx_val_of_single rfl j q
/-- Column coordinate of the right operand's index: the result's column. -/
theorem mix_rhs_1 (j : S256x128.Idx) (q : dot_S256x2048_S2048x128_S256x128_1_0_0_1_n_n.contr.Idx) :
    (dot_S256x2048_S2048x128_S256x128_1_0_0_1_n_n.rhsIdx j q 1).val = (j 1).val := by
  unfold DotDims.rhsIdx
  rw [dif_neg (show ¬(1 : Fin S2048x128.rank) ∈ dot_S256x2048_S2048x128_S256x128_1_0_0_1_n_n.rhsBatch by decide),
    dif_pos (show (1 : Fin S2048x128.rank) ∈ dot_S256x2048_S2048x128_S256x128_1_0_0_1_n_n.rhsNonContracting by decide)]
  rfl

/-- The second product p·v, into the zero block: at `(r, d)` the sum over the 2048 key rows of the products. -/
theorem matmul_mix_apply (a : FVec Ideal S256x2048 .bf16) (b : FVec Ideal S2048x128 .bf16) (r : Fin 256) (d : Fin 128) :
    matmul dot_S256x2048_S2048x128_S256x128_1_0_0_1_n_n none a b (constant (F := Ideal) S256x128 .f32 0x00000000#32) (ix2 r d)
      = ∑ t : Fin 2048, a (ix2 r t) * b (ix2 t d) := by
  simp only [matmul]
  rw [Ideal.matmul_constant_zero_apply,
    ← Equiv.sum_comp (contrEquiv1 dot_S256x2048_S2048x128_S256x128_1_0_0_1_n_n 2048 rfl rfl).symm]
  refine Finset.sum_congr rfl fun t _ => ?_
  have ht := contrEquiv1_symm_val dot_S256x2048_S2048x128_S256x128_1_0_0_1_n_n 2048 rfl rfl t
  have el : dot_S256x2048_S2048x128_S256x128_1_0_0_1_n_n.lhsIdx (ix2 r d)
      ((contrEquiv1 dot_S256x2048_S2048x128_S256x128_1_0_0_1_n_n 2048 rfl rfl).symm t) = ix2 r t :=
    funext fun ax => Fin.ext (by
      match ax with
      | ⟨0, _⟩ => exact mix_lhs_0 _ _
      | ⟨1, _⟩ => exact (mix_lhs_1 _ _).trans ht)
  have er : dot_S256x2048_S2048x128_S256x128_1_0_0_1_n_n.rhsIdx (ix2 r d)
      ((contrEquiv1 dot_S256x2048_S2048x128_S256x128_1_0_0_1_n_n 2048 rfl rfl).symm t) = ix2 t d :=
    funext fun ax => Fin.ext (by
      match ax with
      | ⟨0, _⟩ => exact (mix_rhs_0 _ _).trans ht
      | ⟨1, _⟩ => exact mix_rhs_1 _ _)
  rw [el, er]
end Mix

/-! ## The two row reductions at an index -/

/-- The index of row `r` with the reduced coordinate `t` put back is `(r, t)`. -/
theorem lift_row (r : Fin 256) (t : Fin 2048) :
    reduces_S256x2048_S256.lift (ix1 r) t = ix2 r t :=
  funext fun ax => Fin.ext (by
    match ax with
    | ⟨0, _⟩ => rfl
    | ⟨1, _⟩ => rfl)

/-- The row maximum: at row `r` the fold of `max` from `⊥` over the row's 2048 entries. -/
theorem rowMax_apply (s : FVec Ideal S256x2048 .f32) (r : Fin 256) :
    multiReduction (F := Ideal) .maximumf [1] S256 s 0xFF800000#32 reduces_S256x2048_S256 (.inl rfl) rfl (ix1 r)
      = (Finset.univ : Finset (Fin 2048)).fold max (⊥ : EReal) (fun t => s (ix2 r t)) := by
  refine (Ideal.multiReduction_maximumf_single s 0xFF800000#32 reduces_S256x2048_S256 (.inl rfl) rfl (ix1 r)).trans ?_
  rw [ofBits_negInf_f32]
  exact congrArg (fun f => (Finset.univ : Finset (Fin 2048)).fold max (⊥ : EReal) f) (funext fun t => congrArg s (lift_row r t))

/-- The row sum: at row `r` the sum of the row's 2048 entries. -/
theorem rowSum_apply (w : FVec Ideal S256x2048 .f32) (r : Fin 256) :
    multiReduction (F := Ideal) .add [1] S256 w 0x00000000#32 reduces_S256x2048_S256 (.inl rfl) rfl (ix1 r)
      = ∑ t : Fin 2048, w (ix2 r t) := by
  refine (Ideal.multiReduction_add_single w 0x00000000#32 reduces_S256x2048_S256 (.inl rfl) rfl (ix1 r)).trans ?_
  exact Finset.sum_congr rfl fun t _ => congrArg w (lift_row r t)

/-! ## The transposed keys and the two row reductions as functions of their operand -/

/-- The keys transposed: entry `(c, t)` is the keys' entry `(t, c)`. -/
def keysT (k : FVec Ideal S2048x128 .bf16) : FVec Ideal S128x2048 .bf16 := fun j => k (ix2 (j 1) (j 0))

theorem keysT_apply (k : FVec Ideal S2048x128 .bf16) (c : Fin 128) (t : Fin 2048) : keysT k (ix2 c t) = k (ix2 t c) := rfl

/-- The transpose of the keys is that function. -/
theorem transpose_keys_eq (k : FVec Ideal S2048x128 .bf16) :
    transpose S128x2048 [1, 0] k transposes_S2048x128_p1_0_S128x2048 = keysT k :=
  funext fun j => by
    rw [eq_ix2 j]
    exact transpose_ix2_apply k transposes_S2048x128_p1_0_S128x2048 (j 0) (j 1)

/-- Row maxima: entry `r` is the fold of `max` from `⊥` over row `r`. -/
def rowMaxOf (s : FVec Ideal S256x2048 .f32) : FVec Ideal S256 .f32 :=
  fun j => (Finset.univ : Finset (Fin 2048)).fold max (⊥ : EReal) (fun t => s (ix2 (j 0) t))

theorem rowMaxOf_apply (s : FVec Ideal S256x2048 .f32) (r : Fin 256) :
    rowMaxOf s (ix1 r) = (Finset.univ : Finset (Fin 2048)).fold max (⊥ : EReal) (fun t => s (ix2 r t)) := rfl

/-- The maximum reduction over the key axis is that function. -/
theorem multiReduction_max_eq (s : FVec Ideal S256x2048 .f32) :
    multiReduction (F := Ideal) .maximumf [1] S256 s 0xFF800000#32 reduces_S256x2048_S256 (.inl rfl) rfl = rowMaxOf s :=
  funext fun j => by
    rw [eq_ix1 j]
    exact rowMax_apply s (j 0)

/-- Row sums: entry `r` is the sum of row `r`. -/
def rowSumOf (w : FVec Ideal S256x2048 .f32) : FVec Ideal S256 .f32 := fun j => ∑ t : Fin 2048, w (ix2 (j 0) t)

theorem rowSumOf_apply (w : FVec Ideal S256x2048 .f32) (r : Fin 256) : rowSumOf w (ix1 r) = ∑ t : Fin 2048, w (ix2 r t) := rfl

/-- The add reduction over the key axis is that function. -/
theorem multiReduction_add_eq (w : FVec Ideal S256x2048 .f32) :
    multiReduction (F := Ideal) .add [1] S256 w 0x00000000#32 reduces_S256x2048_S256 (.inl rfl) rfl = rowSumOf w :=
  funext fun j => by
    rw [eq_ix1 j]
    exact rowSum_apply w (j 0)

/-! ## The stored block at an index -/

/-- The first call's stored block at `(0, r, d)`: the gated softmax row of query row `r` against all the keys and values,
    at feature `d`. The transpose and the two reductions are replaced by their functions, every operation is read at
    its index down to the four loaded blocks, and what is left is the specification's expression. -/
theorem pay0_apply (x0 : Vec Ideal S1x256x128 .f32) (x1 x2 : Vec Ideal S1x2048x128 .f32) (x3 : Vec Ideal S1x256x128 .f32)
    (r : Fin 256) (d : Fin 128) :
    Cert.KernelIdeal.Gen.k0_pay1 (F := Ideal) x0 x1 x2 x3 (ix3 0 r d)
      = Cert.Attn.gatedRow (fun d' => x0 (ix3 0 r d')) (fun t d' => x1 (ix3 0 t d')) (fun t d' => x2 (ix3 0 t d'))
          (fun d' => x3 (ix3 0 r d')) d := by
  unfold Gen.k0_pay1
  rw [transpose_keys_eq, multiReduction_max_eq, multiReduction_add_eq]
  simp only [shapeCast_ab_1ab_apply, mulf_apply, matmul_mix_apply, truncf_apply, divf_apply, exp_apply, subf_apply,
    matmul_scores_apply, keysT_apply, shapeCast_1ab_ab_apply, broadcastTo_a1_ab_apply, shapeCast_a_a1_apply,
    rowMaxOf_apply, rowSumOf_apply]
  unfold Cert.Attn.gatedRow Cert.Attn.mix Cert.Attn.rowSum Cert.Attn.weight Cert.Attn.rowMax Cert.Attn.score
  rfl

/-- The two calls' stored blocks are the same function of their four loads. -/
theorem k1_eq_k0 : @Cert.KernelIdeal.Gen.k1_pay1 = @Cert.KernelIdeal.Gen.k0_pay1 := rfl

/-- The second call's stored block at `(0, r, d)`, likewise. -/
theorem pay1_apply (x0 : Vec Ideal S1x256x128 .f32) (x1 x2 : Vec Ideal S1x2048x128 .f32) (x3 : Vec Ideal S1x256x128 .f32)
    (r : Fin 256) (d : Fin 128) :
    Cert.KernelIdeal.Gen.k1_pay1 (F := Ideal) x0 x1 x2 x3 (ix3 0 r d)
      = Cert.Attn.gatedRow (fun d' => x0 (ix3 0 r d')) (fun t d' => x1 (ix3 0 t d')) (fun t d' => x2 (ix3 0 t d'))
          (fun d' => x3 (ix3 0 r d')) d := by
  rw [k1_eq_k0]
  exact pay0_apply x0 x1 x2 x3 r d

end Cert.KernelIdeal.PayValue

end
-- ==== Proof.RefValue.lean ====
/-
  The reference program read as the specification's two attention passes, at the exact values (every float an
  extended real, every operation exact).

  For arrays x and y of extents [8, 2048, 128] the program computes
    scores     m(b,s,t) = ∑ d, x(b,s,d) · y(b,t,d)
    row maxima r(b,s)   = max (−∞) (the fold of max from −∞ over t of m(b,s,t))
    weights    e(b,s,t) = exp (m(b,s,t) − r(b,s))
    row sums   z(b,s)   = 0 + ∑ t, e(b,s,t)
    softmax    p(b,s,t) = e(b,s,t) / z(b,s)
    mixture    o(b,s,d) = ∑ t, p(b,s,t) · y(b,t,d)
    gated      a(b,s,d) = o(b,s,d) · x(b,s,d)
  which is the specification's pass with queries x, keys y, values y and gate x; then the same with x and y
  exchanged; then it joins the two results along the feature axis. Each stage is read at an index with literal
  coordinates (b, s, t) or (b, s, d), one small lemma per stage, and the lemmas are chained. No law of
  arithmetic is used beyond max ⊥ r = r and 0 + z = z: the two sides are the same sums in the same order.
-/
import proofs.«151700_j76364518523410_1_alg».proof.Proof.RefRead
import proofs.«151700_j76364518523410_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.StableHlo Cert.Attn

/-- An array of extents [8, 2048, 128] at the exact values. -/
abbrev Arr : Type := (⟨S8x2048x128, .f32⟩ : BufTy).Contents (Elt Ideal)

/-- Row (b, s) of an array, as a function of the feature. -/
abbrev qrow (x : Arr) (b : Fin 8) (s : Fin 2048) : Fin 128 → EReal := fun d => x (ix3 b s d)
/-- All 2048 rows of batch b of an array. -/
abbrev rows (y : Arr) (b : Fin 8) : Fin 2048 → Fin 128 → EReal := fun t d => y (ix3 b t d)

/-! ## The pattern of −∞ -/

/-- The f32 pattern 0xFF800000 denotes −∞, the least extended real. -/
theorem ofBits_negInf : Ideal.ofBits .f32 0xFF800000#32 = (⊥ : EReal) := by simp [Ideal.ofBits, Ideal.ieee]

/-! ## A maximum over the key axis -/

/-- The reduced index (b, s) with key row t put back on the reduced axis is (b, s, t). -/
theorem lift_keys (h : S8x2048x2048.Reduces [2] S8x2048) (b : Fin 8) (s t : Fin 2048) :
    h.lift (ix2 b s) t = ix3 b s t := by
  funext c; apply Fin.ext
  fin_cases c <;> rfl

/-- From −∞ a reduction with a maximum body over the key axis is, at (b, s), the fold of max from ⊥ over the keys. -/
theorem reduceMax_keys (m : FVec Ideal S8x2048x2048 .f32) (b : Fin 8) (s : Fin 2048) :
    Host.reduce (FloatOps.maximumf (F := Ideal) (φ := .f32)) m (constant (F := Ideal) S_ .f32 0xFF800000#32)
        reducesTo_S8x2048x2048_S8x2048_d2 h_S_ (ix2 b s)
      = (Finset.univ : Finset (Fin 2048)).fold max (⊥ : EReal) (fun t => m (ix3 b s t)) := by
  have h : S8x2048x2048.Reduces [2] S8x2048 := by decide
  rw [Host.reduce_eq_fold_single (FloatOps.maximumf (F := Ideal) (φ := .f32)) m _ reducesTo_S8x2048x2048_S8x2048_d2 h h_S_]
  have hf : (m ∘ h.lift (ix2 b s)) = fun t : Fin 2048 => m (ix3 b s t) :=
    funext fun t => congrArg m (lift_keys h b s t)
  have hb : Finset.fold max (Ideal.ofBits .f32 0xFF800000#32) (m ∘ h.lift (ix2 b s)) (Finset.univ : Finset (Fin 2048))
      = Finset.fold max (⊥ : EReal) (fun t : Fin 2048 => m (ix3 b s t)) (Finset.univ : Finset (Fin 2048)) := by
    rw [hf, ofBits_negInf]
    rfl
  exact hb

variable (x y : Arr)

/-! ## The stages of one pass, each read at an index -/

/-- The score of query row (b, s) against key row t: ∑ d, x(b,s,d) · y(b,t,d). -/
theorem scores_apply (b : Fin 8) (s t : Fin 2048) :
    val_main_v0 (F := Ideal) x y (ix3 b s t) = score (qrow x b s) (rows y b) t := by
  rw [val_main_v0_apply]
  refine Finset.sum_congr rfl fun k _ => ?_
  have el : lidx_main_v0 (ix3 b s t) k = ix3 b s k := funext fun a => Fin.ext (by match a with | ⟨0, _⟩ => rfl | ⟨1, _⟩ => rfl | ⟨2, _⟩ => rfl)
  have er : ridx_main_v0 (ix3 b s t) k = ix3 b t k := funext fun a => Fin.ext (by match a with | ⟨0, _⟩ => rfl | ⟨1, _⟩ => rfl | ⟨2, _⟩ => rfl)
  rw [el, er]

/-- The reduction over the keys at (b, s) is the row's maximum, folded from ⊥. -/
theorem reduceMax_apply (b : Fin 8) (s : Fin 2048) :
    val_main_v1 (F := Ideal) x y (ix2 b s) = rowMax (qrow x b s) (rows y b) := by
  refine (reduceMax_keys (val_main_v0 (F := Ideal) x y) b s).trans ?_
  exact congrArg (fun f => Finset.fold max (⊥ : EReal) f (Finset.univ : Finset (Fin 2048)))
    (funext fun t => scores_apply x y b s t)

/-- The maximum of −∞ and the reduction is the same row maximum: max ⊥ r = r. -/
theorem rowMax_apply (b : Fin 8) (s : Fin 2048) :
    val_main_v3 (F := Ideal) x y (ix2 b s) = rowMax (qrow x b s) (rows y b) := by
  rw [val_main_v3_apply, val_main_v2_apply, val_main_cst_0_apply, reduceMax_apply]
  show max (Ideal.ofBits .f32 0xFF800000#32) _ = _
  rw [ofBits_negInf]
  exact max_bot_left _

/-- The row maxima laid over the keys: at (b, s, t) the maximum of row (b, s). -/
theorem rowMax_bcast_apply (b : Fin 8) (s t : Fin 2048) :
    val_main_v5 (F := Ideal) x y (ix3 b s t) = val_main_v3 (F := Ideal) x y (ix2 b s) := by
  rw [val_main_v5_apply, val_main_v4_apply]
  exact congrArg (val_main_v3 (F := Ideal) x y) (funext fun a => Fin.ext (by match a with | ⟨0, _⟩ => rfl | ⟨1, _⟩ => rfl))

/-- The weight of key row t: exp (score − row maximum). -/
theorem weights_apply (b : Fin 8) (s t : Fin 2048) :
    val_main_v7 (F := Ideal) x y (ix3 b s t) = weight (qrow x b s) (rows y b) t := by
  rw [val_main_v7_apply, val_main_v6_apply, scores_apply, rowMax_bcast_apply, rowMax_apply]
  rfl

/-- The sum of the weights over the keys, from zero: the normalizer. -/
theorem rowSum_apply (b : Fin 8) (s : Fin 2048) :
    val_main_v8 (F := Ideal) x y (ix2 b s) = rowSum (qrow x b s) (rows y b) := by
  rw [val_main_v8_apply, val_main_cst_1_apply]
  show Ideal.ofBits .f32 0x00000000#32 + _ = _
  rw [Ideal.ofBits_zero_f32, zero_add]
  refine Finset.sum_congr rfl fun t _ => ?_
  have e : idx_main_v8 (ix2 b s) t = ix3 b s t := funext fun a => Fin.ext (by match a with | ⟨0, _⟩ => rfl | ⟨1, _⟩ => rfl | ⟨2, _⟩ => rfl)
  rw [e]
  exact weights_apply x y b s t

/-- The normalizers laid over the keys: at (b, s, t) the normalizer of row (b, s). -/
theorem rowSum_bcast_apply (b : Fin 8) (s t : Fin 2048) :
    val_main_v10 (F := Ideal) x y (ix3 b s t) = val_main_v8 (F := Ideal) x y (ix2 b s) := by
  rw [val_main_v10_apply, val_main_v9_apply]
  exact congrArg (val_main_v8 (F := Ideal) x y) (funext fun a => Fin.ext (by match a with | ⟨0, _⟩ => rfl | ⟨1, _⟩ => rfl))

/-- The softmax entry: weight / normalizer. -/
theorem softmax_apply (b : Fin 8) (s t : Fin 2048) :
    val_main_v11 (F := Ideal) x y (ix3 b s t)
      = Ideal.div (weight (qrow x b s) (rows y b) t) (rowSum (qrow x b s) (rows y b)) := by
  rw [val_main_v11_apply, weights_apply, rowSum_bcast_apply, rowSum_apply]
  rfl

/-- The softmax row times the values, at feature d. -/
theorem mix_apply (b : Fin 8) (s : Fin 2048) (d : Fin 128) :
    val_main_v12 (F := Ideal) x y (ix3 b s d) = mix (qrow x b s) (rows y b) (rows y b) d := by
  rw [val_main_v12_apply]
  refine Finset.sum_congr rfl fun t _ => ?_
  have el : lidx_main_v12 (ix3 b s d) t = ix3 b s t := funext fun a => Fin.ext (by match a with | ⟨0, _⟩ => rfl | ⟨1, _⟩ => rfl | ⟨2, _⟩ => rfl)
  have er : ridx_main_v12 (ix3 b s d) t = ix3 b t d := funext fun a => Fin.ext (by match a with | ⟨0, _⟩ => rfl | ⟨1, _⟩ => rfl | ⟨2, _⟩ => rfl)
  rw [el, er, softmax_apply]

/-- The gated mixture at (b, s, d) is the specification's pass with queries x, keys y, values y, gate x. -/
theorem gated_apply (b : Fin 8) (s : Fin 2048) (d : Fin 128) :
    val_main_v13 (F := Ideal) x y (ix3 b s d) = pass x y y x b s d := by
  rw [val_main_v13_apply, mix_apply]
  rfl

/-! ## The two passes and the result -/

/-- The first pass: softmax(x·yᵀ)·y ⊙ x. -/
theorem pass1_eq : val_main_v13 (F := Ideal) x y = passArr x y y x := by
  funext i
  obtain ⟨b, s, d, rfl⟩ : ∃ (b : Fin 8) (s : Fin 2048) (d : Fin 128), i = ix3 b s d := ⟨i 0, i 1, i 2, eq_ix3 i⟩
  exact (gated_apply x y b s d).trans (passArr_ix3 x y y x b s d).symm

/-- The second pass's stages are the first pass's with the two arrays exchanged. -/
theorem pass2_stage_eq : val_main_v27 (F := Ideal) x y = val_main_v13 (F := Ideal) y x := rfl

/-- The second pass: softmax(y·xᵀ)·x ⊙ y. -/
theorem pass2_eq : val_main_v27 (F := Ideal) x y = passArr y x x y :=
  (pass2_stage_eq x y).trans (pass1_eq y x)

/-- The result, as the last stage: the two passes joined along the feature axis. -/
theorem result_stage_eq :
    val_main_v28 (F := Ideal) x y
      = concatenate S8x2048x256 2 [⟨S8x2048x128, passArr x y y x⟩, ⟨S8x2048x128, passArr y x x y⟩]
          concatenates_S8x2048x128_S8x2048x128_S8x2048x256_d2 := by
  unfold val_main_v28
  rw [pass1_eq, pass2_eq]

/-- The term the program's run states for the result buffer — its 35 operations composed into one expression of x and y —
    equals the two passes joined along the feature axis. -/
theorem result_eq :
    concatenate S8x2048x256 2 [⟨S8x2048x128, (mulf (Host.dotGeneral (F := Ideal) (φ₁ := .f32) (φ₂ := .f32) dot_S8x2048x2048_S8x2048x128_S8x2048x128_2_1_1_2_0_0 none (Host.divf (F := Ideal) (Host.exp (F := Ideal) (subf (Host.dotGeneral (F := Ideal) (φ₁ := .f32) (φ₂ := .f32) dot_S8x2048x128_S8x2048x128_S8x2048x2048_2_2_1_1_0_0 none x y) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant (F := Ideal) S_ .f32 0xFF800000#32)) (Host.reduce FloatOps.maximumf (Host.dotGeneral (F := Ideal) (φ₁ := .f32) (φ₂ := .f32) dot_S8x2048x128_S8x2048x128_S8x2048x2048_2_2_1_1_0_0 none x y) (constant (F := Ideal) S_ .f32 0xFF800000#32) reducesTo_S8x2048x2048_S8x2048_d2 h_S_)))))) (broadcastInDim S8x2048x2048 ![0, 1, 2] bcast_S8x2048x1_S8x2048x2048_0_1_2 (broadcastInDim S8x2048x1 ![0, 1] bcast_S8x2048_S8x2048x1_0_1 (Host.reduceAdd (F := Ideal) (Host.exp (F := Ideal) (subf (Host.dotGeneral (F := Ideal) (φ₁ := .f32) (φ₂ := .f32) dot_S8x2048x128_S8x2048x128_S8x2048x2048_2_2_1_1_0_0 none x y) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant (F := Ideal) S_ .f32 0xFF800000#32)) (Host.reduce FloatOps.maximumf (Host.dotGeneral (F := Ideal) (φ₁ := .f32) (φ₂ := .f32) dot_S8x2048x128_S8x2048x128_S8x2048x2048_2_2_1_1_0_0 none x y) (constant (F := Ideal) S_ .f32 0xFF800000#32) reducesTo_S8x2048x2048_S8x2048_d2 h_S_)))))) (constant (F := Ideal) S_ .f32 0x00000000#32) reducesTo_S8x2048x2048_S8x2048_d2 h_S_)))) y) x)⟩, ⟨S8x2048x128, (mulf (Host.dotGeneral (F := Ideal) (φ₁ := .f32) (φ₂ := .f32) dot_S8x2048x2048_S8x2048x128_S8x2048x128_2_1_1_2_0_0 none (Host.divf (F := Ideal) (Host.exp (F := Ideal) (subf (Host.dotGeneral (F := Ideal) (φ₁ := .f32) (φ₂ := .f32) dot_S8x2048x128_S8x2048x128_S8x2048x2048_2_2_1_1_0_0 none y x) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant (F := Ideal) S_ .f32 0xFF800000#32)) (Host.reduce FloatOps.maximumf (Host.dotGeneral (F := Ideal) (φ₁ := .f32) (φ₂ := .f32) dot_S8x2048x128_S8x2048x128_S8x2048x2048_2_2_1_1_0_0 none y x) (constant (F := Ideal) S_ .f32 0xFF800000#32) reducesTo_S8x2048x2048_S8x2048_d2 h_S_)))))) (broadcastInDim S8x2048x2048 ![0, 1, 2] bcast_S8x2048x1_S8x2048x2048_0_1_2 (broadcastInDim S8x2048x1 ![0, 1] bcast_S8x2048_S8x2048x1_0_1 (Host.reduceAdd (F := Ideal) (Host.exp (F := Ideal) (subf (Host.dotGeneral (F := Ideal) (φ₁ := .f32) (φ₂ := .f32) dot_S8x2048x128_S8x2048x128_S8x2048x2048_2_2_1_1_0_0 none y x) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant (F := Ideal) S_ .f32 0xFF800000#32)) (Host.reduce FloatOps.maximumf (Host.dotGeneral (F := Ideal) (φ₁ := .f32) (φ₂ := .f32) dot_S8x2048x128_S8x2048x128_S8x2048x2048_2_2_1_1_0_0 none y x) (constant (F := Ideal) S_ .f32 0xFF800000#32) reducesTo_S8x2048x2048_S8x2048_d2 h_S_)))))) (constant (F := Ideal) S_ .f32 0x00000000#32) reducesTo_S8x2048x2048_S8x2048_d2 h_S_)))) x) y)⟩] concatenates_S8x2048x128_S8x2048x128_S8x2048x256_d2
      = concatenate S8x2048x256 2 [⟨S8x2048x128, passArr x y y x⟩, ⟨S8x2048x128, passArr y x x y⟩]
          concatenates_S8x2048x128_S8x2048x128_S8x2048x256_d2 :=
  (val_main_v28_eq (F := Ideal) x y).trans (result_stage_eq x y)

end Cert.ReferenceIdeal.RefValue

end
-- ==== Proof.lean ====
/-
  Two gated softmax-attention passes, concatenated: the tiled kernel against the plain reference.

  The kernel makes two calls. Each takes a query array q, a key array k, a value array v and a gate array g, all of
  extents [8, 2048, 128], and on an 8 × 8 grid computes, for each batch and each block of 256 query rows,
  softmax(q·kᵀ)·v ⊙ g against all 2048 key and value rows of the batch: the row of scores, its maximum, the
  exponentials of the differences, their sum, the quotients, their product with the values, and the gate. The first
  call is at (x, y, y, x), the second at (y, x, x, y); the two results are joined along the last axis. The reference
  computes the same two passes over whole arrays (two batched contractions around a softmax) and joins them
  likewise. Read on the extended reals, with every operation exact and every change of float format the identity,
  both programs compute, at each (batch, row, feature), the one function `Cert.Attn.pass` of the rows involved —
  the same sums, the same maximum, the same exponentials and quotients, in the same order of operations, so that no
  law beyond the definitions is needed and the inputs' finiteness is never used.

  The frames: each program runs to the end from any memory, faults nowhere, and leaves its arguments as launched. For
  the kernel (at the word level and on the extended reals alike) this is the run of its two calls and the
  concatenate (KRun, KIRun): in each call two windows read one array, and the core's hold on that array is dealt to
  them as the two halves of the full share and joined back at the call's end. For the reference it is its run with
  the result dropped.

  The idealized kernel is the kernel's own text read on the extended reals: nothing was rewritten, so there is
  nothing to preserve.

  The values: each call's result array is the fold of the 64 blocks its points write back, each block the store's
  payload of the point's four input blocks (KIValue); the payload at a row and feature is `Cert.Attn.gatedRow` of
  the rows read (PayValue); the reference's composed term is the same function (RefValue).
-/
import proofs.«151700_j76364518523410_1_alg».proof.Defs
import proofs.«151700_j76364518523410_1_alg».proof.Proof.Gen.Kernel
import proofs.«151700_j76364518523410_1_alg».proof.Proof.Gen.KernelIdeal
import proofs.«151700_j76364518523410_1_alg».proof.Proof.Gen.ReferenceIdeal
import proofs.«151700_j76364518523410_1_alg».proof.Proof.Gen.Pre_finite_inputs
import proofs.«151700_j76364518523410_1_alg».proof.Proof.KRun
import proofs.«151700_j76364518523410_1_alg».proof.Proof.KIRun
import proofs.«151700_j76364518523410_1_alg».proof.Proof.KIValue
import proofs.«151700_j76364518523410_1_alg».proof.Proof.PayValue
import proofs.«151700_j76364518523410_1_alg».proof.Proof.RefValue
import Idealize.ShloMosaic.Adequacy
import Idealize.ShloMosaic.Init

noncomputable section

namespace Cert.Proof

open Idealize.ShloMosaic Idealize.ShloMosaic.TcCoe Idealize.SL.Sem Cert.Attn

/-- The word-level kernel runs and leaves its arguments as launched. -/
theorem frame_k : @Cert.frame_Kernel Cert.Kernel.Gen.facts Cert.Pre_finite_inputs.Gen.facts :=
  fun m ρ _ => Cert.Kernel.Hand.frame m ρ

/-- So does the kernel read on the extended reals. -/
theorem frame_ki : @Cert.frame_KernelIdeal Cert.KernelIdeal.Gen.facts Cert.Pre_finite_inputs.Gen.facts :=
  fun m ρ _ => Cert.KernelIdeal.Hand.frame m ρ

/-- The reference's frame is its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.ValueP.run (F := Ideal) m ρ)

/-- Nothing was rewritten between the kernel and its idealization. -/
theorem preserves : Cert.preserves_Kernel_KernelIdeal := trivial

/-- On the extended reals both programs end with the output array at the two passes side by side, the first of
    (x, y, y, x) and the second of (y, x, x, y), x and y the launch contents of the two arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => concatenate Cert.KernelIdeal.S8x2048x256 2
      [⟨Cert.KernelIdeal.S8x2048x128, passArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg1)) (m ((c.tc : Thread Cert.KernelIdeal.nD Cert.KernelIdeal.τ).loc Cert.KernelIdeal.main_arg0))⟩,
       ⟨Cert.KernelIdeal.S8x2048x128, passArr (m ((c.tc : Thread Cert.KernelIdeal.nD Cert.KernelIdeal.τ).loc Cert.KernelIdeal.main_arg1)) (m ((c.tc : Thread Cert.KernelIdeal.nD Cert.KernelIdeal.τ).loc Cert.KernelIdeal.main_arg0))
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))⟩]
      (Cert.KernelIdeal.Facts₀.concatenates_S8x2048x128_S8x2048x128_S8x2048x256_d2 (self := Cert.KernelIdeal.Gen.facts.toFacts₀)), ?_, ?_⟩
  · -- the kernel: the two calls' result arrays are the two passes
    refine (θ_run Cert.KernelIdeal.defs _ _).mono (fun _ h c => ⟨(h c).1.trans ?_, (h c).2.1, (h c).2.2⟩)
      (Cert.KernelIdeal.Hand.run_out (F := Ideal) m ρ)
    rw [Cert.KernelIdeal.HandValue.final0_of (Cert.KernelIdeal.Hand.V0 m) c _ _ Cert.KernelIdeal.PayValue.pay0_apply rfl rfl,
      Cert.KernelIdeal.HandValue.final1_of (Cert.KernelIdeal.Hand.V1 m) c _ _ Cert.KernelIdeal.PayValue.pay1_apply
        (Cert.KernelIdeal.Hand.W1_arg0 m c) (Cert.KernelIdeal.Hand.W1_arg1 m c)]
  · -- the reference: its composed term is the two passes of its own arguments, which agree with the kernel's
    refine (θ_run Cert.ReferenceIdeal.defs _ _).mono (fun _ h c => ⟨(h c).1.trans ?_, (h c).2.1, (h c).2.2⟩)
      (Cert.ReferenceIdeal.ValueP.run (F := Ideal) m' ρ')
    rw [Cert.ReferenceIdeal.RefValue.result_eq, (hagree c).1, (hagree c).2]

/-- The certificate's claim: the three frames, the (empty) idealization ledger, and the equality of the two results on
    the extended reals. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
